-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x2 : Shape := ⟨2, ![100000, 2]⟩
abbrev S2x2000000 : Shape := ⟨2, ![2, 2000000]⟩
abbrev S2000000 : Shape := ⟨1, ![2000000]⟩
abbrev S2x128 : Shape := ⟨2, ![2, 128]⟩
abbrev S128 : Shape := ⟨1, ![128]⟩
abbrev S128x16 : Shape := ⟨2, ![128, 16]⟩
abbrev S16 : Shape := ⟨1, ![16]⟩
abbrev S19x32 : Shape := ⟨2, ![19, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S2000000 : S_.BroadcastsInDim S2000000 (![] : Fin 0 → Fin S2000000.rank)
  reducesTo_S2000000_S_d0 : S2000000.ReducesTo [0] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S19x32 : S_.BroadcastsInDim S19x32 (![] : Fin 0 → Fin S19x32.rank)
  reducesTo_S19x32_S_d0_1 : S19x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S32x1 .f32) (main_arg13 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg12
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S19x32 .f32) (main_arg9 : FVec F S32 .f32) (main_arg10 : FVec F S32x32 .f32) (main_arg11 : FVec F S32 .f32) (main_arg12 : FVec F S32x1 .f32) (main_arg13 : FVec F S1 .f32) (main_v33 : IVec S_ 1) : IVec S_ 1 :=
  let main_v34 : FVec F S19x32 .f32 := Host.absf main_arg8
  let main_cst_12 : FVec F S_ .f32 := constant S_ .f32 0x7F800000#32
  let main_v35 : FVec F S19x32 .f32 := broadcastInDim S19x32 ![] bcast_S_S19x32 main_cst_12
  let main_v36 : IVec S19x32 1 := cmpf .olt main_v34 main_v35
  let main_c_13 : IVec S_ 1 := constantI S_ 1 1#1
  let main_v37 : IVec S_ 1 := (fun x v => Host.reduce IntOp.andi x v reducesTo_S19x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S128 .f32) (main_arg6 : FVec F S128x16 .f32) (main_arg7 : FVec F S16 .f32) (main_arg8 : FVec F S19x32 .f32) (main_arg9 : FVec F S32 .f32) (main_arg10 : FVec F S32x32 .f32) (main_arg11 : FVec F S32 .f32) (main_arg12 : FVec F S32x1 .f32) (main_arg13 : FVec F S1 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x3 .f32) (main_arg1 : FVec F S100000x2 .f32) (main_arg2 : IVec S2x2000000 32) (main_arg3 : FVec F S2000000 .f32) (main_arg4 : FVec F S2x128 .f32) (main_arg5 : FVec F S128 .f32) (main_arg6 : FVec F S128x16 .f32) (main_arg7 : FVec F S16 .f32) (main_arg8 : FVec F S19x32 .f32) (main_arg9 : FVec F S32 .f32) (main_arg10 : FVec F S32x32 .f32) (main_arg11 : FVec F S32 .f32) (main_arg12 : FVec F S32x1 .f32) (main_arg13 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S2000000 .f32 := Host.absf main_arg3
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S2x128 .f32 := Host.absf main_arg4
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg5 main_arg6 main_arg7 main_arg8 main_arg9 main_arg10 main_arg11 main_arg12 main_arg13 main_v13 main_v16
-- ==== Kernel.lean ====
abbrev S100000x3 : Shape := ⟨2, ![100000, 3]⟩
abbrev S100000x2 : Shape := ⟨2, ![100000, 2]⟩
abbrev S2x2000000 : Shape := ⟨2, ![2, 2000000]⟩
abbrev S2000000 : Shape := ⟨1, ![2000000]⟩
abbrev S2x128 : Shape := ⟨2, ![2, 128]⟩
abbrev S128 : Shape := ⟨1, ![128]⟩
abbrev S128x16 : Shape := ⟨2, ![128, 16]⟩
abbrev S16 : Shape := ⟨1, ![16]⟩
abbrev S19x32 : Shape := ⟨2, ![19, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x2000000 : Shape := ⟨2, ![1, 2000000]⟩
abbrev S2100000 : Shape := ⟨1, ![2100000]⟩
abbrev S_ : Shape := ⟨0, ![]⟩
abbrev S2100000x1 : Shape := ⟨2, ![2100000, 1]⟩
abbrev S100000x32 : Shape := ⟨2, ![100000, 32]⟩
abbrev S5000x3 : Shape := ⟨2, ![5000, 3]⟩
abbrev S5000x2 : Shape := ⟨2, ![5000, 2]⟩
abbrev S5000x32 : Shape := ⟨2, ![5000, 32]⟩
abbrev S5000x128 : Shape := ⟨2, ![5000, 128]⟩
abbrev S1x128 : Shape := ⟨2, ![1, 128]⟩
abbrev S5000x16 : Shape := ⟨2, ![5000, 16]⟩
abbrev S1x16 : Shape := ⟨2, ![1, 16]⟩
abbrev S5000x19 : Shape := ⟨2, ![5000, 19]⟩
abbrev S2100000x32 : Shape := ⟨2, ![2100000, 32]⟩
abbrev S1x32 : Shape := ⟨2, ![1, 32]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 91
  | .vmem => 24
  | .smem => 0
  | _ => 0

abbrev bufTy : (tb : Table) → Fin (tcTables nBuf tb) → BufTy
  | .hbm, ⟨0, _⟩ => ⟨S100000x3, .f32⟩
  | .hbm, ⟨1, _⟩ => ⟨S100000x2, .f32⟩
  | .hbm, ⟨2, _⟩ => ⟨S2x2000000, .i32⟩
  | .hbm, ⟨3, _⟩ => ⟨S2000000, .f32⟩
  | .hbm, ⟨4, _⟩ => ⟨S2x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S19x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S100000, .i32⟩
  | .hbm, ⟨15, _⟩ => ⟨S1x2000000, .i32⟩
  | .hbm, ⟨16, _⟩ => ⟨S2000000, .i32⟩
  | .hbm, ⟨17, _⟩ => ⟨S2100000, .i32⟩
  | .hbm, ⟨18, _⟩ => ⟨S1x2000000, .i32⟩
  | .hbm, ⟨19, _⟩ => ⟨S2000000, .i32⟩
  | .hbm, ⟨20, _⟩ => ⟨S2100000, .i32⟩
  | .hbm, ⟨21, _⟩ => ⟨S_, .f32⟩
  | .hbm, ⟨22, _⟩ => ⟨S100000, .f32⟩
  | .hbm, ⟨23, _⟩ => ⟨S2100000, .f32⟩
  | .hbm, ⟨24, _⟩ => ⟨S_, .f32⟩
  | .hbm, ⟨25, _⟩ => ⟨S100000, .f32⟩
  | .hbm, ⟨26, _⟩ => ⟨S2100000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S2100000, .i32⟩
  | .hbm, ⟨38, _⟩ => ⟨S2100000, .i1⟩
  | .hbm, ⟨39, _⟩ => ⟨S_, .i32⟩
  | .hbm, ⟨40, _⟩ => ⟨S2100000, .i32⟩
  | .hbm, ⟨41, _⟩ => ⟨S2100000, .i32⟩
  | .hbm, ⟨42, _⟩ => ⟨S2100000, .i32⟩
  | .hbm, ⟨43, _⟩ => ⟨S2100000x1, .i32⟩
  | .hbm, ⟨44, _⟩ => ⟨S2100000, .f32⟩
  | .hbm, ⟨45, _⟩ => ⟨S2100000, .f32⟩
  | .hbm, ⟨46, _⟩ => ⟨S_, .i32⟩
  | .hbm, ⟨47, _⟩ => ⟨S2100000, .i32⟩
  | .hbm, ⟨48, _⟩ => ⟨S2100000, .i1⟩
  | .hbm, ⟨49, _⟩ => ⟨S_, .i32⟩
  | .hbm, ⟨50, _⟩ => ⟨S2100000, .i32⟩
  | .hbm, ⟨51, _⟩ => ⟨S2100000, .i32⟩
  | .hbm, ⟨52, _⟩ => ⟨S2100000, .i32⟩
  | .hbm, ⟨53, _⟩ => ⟨S2100000x1, .i32⟩
  | .hbm, ⟨54, _⟩ => ⟨S2100000, .f32⟩
  | .hbm, ⟨55, _⟩ => ⟨S2100000, .f32⟩
  | .hbm, ⟨56, _⟩ => ⟨S100000x32, .f32⟩
  | .hbm, ⟨57, _⟩ => ⟨S_, .i32⟩
  | .hbm, ⟨58, _⟩ => ⟨S2100000, .i32⟩
  | .hbm, ⟨59, _⟩ => ⟨S2100000, .i1⟩
  | .hbm, ⟨60, _⟩ => ⟨S_, .i32⟩
  | .hbm, ⟨61, _⟩ => ⟨S2100000, .i32⟩
  | .hbm, ⟨62, _⟩ => ⟨S2100000, .i32⟩
  | .hbm, ⟨63, _⟩ => ⟨S2100000, .i32⟩
  | .hbm, ⟨64, _⟩ => ⟨S2100000x1, .i32⟩
  | .hbm, ⟨65, _⟩ => ⟨S2100000x32, .f32⟩
  | .hbm, ⟨66, _⟩ => ⟨S2100000x1, .f32⟩
  | .hbm, ⟨67, _⟩ => ⟨S2100000x32, .f32⟩
  | .hbm, ⟨68, _⟩ => ⟨S2100000x32, .f32⟩
  | .hbm, ⟨69, _⟩ => ⟨S_, .f32⟩
  | .hbm, ⟨70, _⟩ => ⟨S100000x32, .f32⟩
  | .hbm, ⟨71, _⟩ => ⟨S2100000x1, .i32⟩
  | .hbm, ⟨72, _⟩ => ⟨S100000x32, .f32⟩
  | .hbm, ⟨73, _⟩ => ⟨S100000x32, .f32⟩
  | .hbm, ⟨74, _⟩ => ⟨S_, .i32⟩
  | .hbm, ⟨75, _⟩ => ⟨S2100000, .i32⟩
  | .hbm, ⟨76, _⟩ => ⟨S2100000, .i1⟩
  | .hbm, ⟨77, _⟩ => ⟨S_, .i32⟩
  | .hbm, ⟨78, _⟩ => ⟨S2100000, .i32⟩
  | .hbm, ⟨79, _⟩ => ⟨S2100000, .i32⟩
  | .hbm, ⟨80, _⟩ => ⟨S2100000, .i32⟩
  | .hbm, ⟨81, _⟩ => ⟨S2100000x1, .i32⟩
  | .hbm, ⟨82, _⟩ => ⟨S2100000x32, .f32⟩
  | .hbm, ⟨83, _⟩ => ⟨S2100000x1, .f32⟩
  | .hbm, ⟨84, _⟩ => ⟨S2100000x32, .f32⟩
  | .hbm, ⟨85, _⟩ => ⟨S2100000x32, .f32⟩
  | .hbm, ⟨86, _⟩ => ⟨S_, .f32⟩
  | .hbm, ⟨87, _⟩ => ⟨S100000x32, .f32⟩
  | .hbm, ⟨88, _⟩ => ⟨S2100000x1, .i32⟩
  | .hbm, ⟨89, _⟩ => ⟨S100000x32, .f32⟩
  | .hbm, ⟨90, _⟩ => ⟨S100000x1, .f32⟩
  | .local _ .vmem, ⟨0, _⟩ => ⟨S5000x3, .f32⟩
  | .local _ .vmem, ⟨1, _⟩ => ⟨S5000x3, .f32⟩
  | .local _ .vmem, ⟨2, _⟩ => ⟨S5000x2, .f32⟩
  | .local _ .vmem, ⟨3, _⟩ => ⟨S5000x2, .f32⟩
  | .local _ .vmem, ⟨4, _⟩ => ⟨S2x128, .f32⟩
  | .local _ .vmem, ⟨5, _⟩ => ⟨S128, .f32⟩
  | .local _ .vmem, ⟨6, _⟩ => ⟨S128x16, .f32⟩
  | .local _ .vmem, ⟨7, _⟩ => ⟨S16, .f32⟩
  | .local _ .vmem, ⟨8, _⟩ => ⟨S19x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32, .f32⟩
  | .local _ .vmem, ⟨14, _⟩ => ⟨S32x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S32, .f32⟩
  | .local _ .vmem, ⟨20, _⟩ => ⟨S32x1, .f32⟩
  | .local _ .vmem, ⟨21, _⟩ => ⟨S1, .f32⟩
  | .local _ .vmem, ⟨22, _⟩ => ⟨S5000x1, .f32⟩
  | .local _ .vmem, ⟨23, _⟩ => ⟨S5000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S19x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S100000 : S_.BroadcastsInDim S100000 (![] : Fin 0 → Fin S100000.rank)
  bcast_S2100000_S2100000x1_0 : S2100000.BroadcastsInDim S2100000x1 (![0] : Fin 1 → Fin S2100000x1.rank)
  bcast_S_S2100000 : S_.BroadcastsInDim S2100000 (![] : Fin 0 → Fin S2100000.rank)
  inb_S5000x3_S5000x3_0_0 : ∀ a, (![0, 0] : Fin 2 → Nat) a + S5000x3.size a ≤ S5000x3.size a
  h_S5000x3 : 0 < S5000x3.numel
  inb_S5000x2_S5000x2_0_0 : ∀ a, (![0, 0] : Fin 2 → Nat) a + S5000x2.size a ≤ S5000x2.size a
  h_S5000x2 : 0 < S5000x2.numel
  inb_S2x128_S2x128_0_0 : ∀ a, (![0, 0] : Fin 2 → Nat) a + S2x128.size a ≤ S2x128.size a
  h_S2x128 : 0 < S2x128.numel
  inb_S128_S128_0 : ∀ a, (![0] : Fin 1 → Nat) a + S128.size a ≤ S128.size a
  h_S128 : 0 < S128.numel
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  inb_S19x32_S19x32_0_0 : ∀ a, (![0, 0] : Fin 2 → Nat) a + S19x32.size a ≤ S19x32.size a
  h_S19x32 : 0 < S19x32.numel
  bitsLt_bf16_f32 : FTy.bits .bf16 < FTy.bits .f32
  shapeCasts_S128_S1x128 : S128.ShapeCasts S1x128
  broadcasts_S1x128_S5000x128 : S1x128.Broadcasts S5000x128
  shapeCasts_S16_S1x16 : S16.ShapeCasts S1x16
  broadcasts_S1x16_S5000x16 : S1x16.Broadcasts S5000x16
  concatenates_S5000x3_S5000x16_S5000x19_d1 : Shape.Concatenates [S5000x3, S5000x16] S5000x19 1
  inb_S5000x32_S5000x32_0_0 : ∀ a, (![0, 0] : Fin 2 → Nat) a + S5000x32.size a ≤ S5000x32.size a
  h_S5000x32 : 0 < S5000x32.numel
  bcast_S2100000x1_S2100000x32_0_1 : S2100000x1.BroadcastsInDim S2100000x32 (![0, 1] : Fin 2 → Fin S2100000x32.rank)
  bcast_S_S100000x32 : S_.BroadcastsInDim S100000x32 (![] : Fin 0 → Fin S100000x32.rank)
  shapeCasts_S5000x32_S5000x32 : S5000x32.ShapeCasts S5000x32
  inb_S32_S32_0 : ∀ a, (![0] : Fin 1 → Nat) a + S32.size a ≤ S32.size a
  h_S32 : 0 < S32.numel
  inb_S32x32_S32x32_0_0 : ∀ a, (![0, 0] : Fin 2 → Nat) a + S32x32.size a ≤ S32x32.size a
  h_S32x32 : 0 < S32x32.numel
  shapeCasts_S32_S1x32 : S32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S2100000x1_S2100000_n_0_0_1_wf : ScatterDims.WF S100000 S2100000x1 S2100000 [] [0] [0] 1
  gather_S100000_S2100000x1_S2100000_n_0_n_n_0_1_1_wf : GatherDims.WF S100000 S2100000x1 S2100000 [] [0] [] [0] [] 1 ![1]
  dot_S5000x2_S2x128_S5000x128_1_0_0_1_n_n_wf : DotDims.WF S5000x2 S2x128 S5000x128 [1] [0] [0] [1] [] []
  dot_S5000x128_S128x16_S5000x16_1_0_0_1_n_n_wf : DotDims.WF S5000x128 S128x16 S5000x16 [1] [0] [0] [1] [] []
  dot_S5000x19_S19x32_S5000x32_1_0_0_1_n_n_wf : DotDims.WF S5000x19 S19x32 S5000x32 [1] [0] [0] [1] [] []
  gather_S100000x32_S2100000x1_S2100000x32_1_0_n_n_0_1_132_wf : GatherDims.WF S100000x32 S2100000x1 S2100000x32 [1] [0] [] [0] [] 1 ![1, 32]
  scatter_S100000x32_S2100000x1_S2100000x32_1_0_0_1_wf : ScatterDims.WF S100000x32 S2100000x1 S2100000x32 [1] [0] [0] 1
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S100000x2.size a
  hwx0_1 : ∀ i : grid0.Coords, EltTy.bits .f32 = 32 ∨ (Rect.block (s := S100000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S128x16.size a
  hwx0_4 : ∀ i : grid0.Coords, EltTy.bits .f32 = 32 ∨ (Rect.block (s := S128x16) S128x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S19x32.size a ≤ S19x32.size a
  hwx0_6 : ∀ i : grid0.Coords, EltTy.bits .f32 = 32 ∨ (Rect.block (s := S19x32) S19x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x32.size a ≤ S100000x32.size a
  hwx0_7 : ∀ i : grid0.Coords, EltTy.bits .f32 = 32 ∨ (Rect.block (s := S100000x32) S5000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32.size a ≤ S32.size a
  hwx1_1 : ∀ i : grid1.Coords, EltTy.bits .f32 = 32 ∨ (Rect.block (s := S32) S32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32.size a ≤ S32.size a
  hwx2_1 : ∀ i : grid2.Coords, EltTy.bits .f32 = 32 ∨ (Rect.block (s := S32) S32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x1.size a ≤ S32x1.size a
  hwx2_2 : ∀ i : grid2.Coords, EltTy.bits .f32 = 32 ∨ (Rect.block (s := S32x1) S32x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1.size a ≤ S1.size a
  hwx2_3 : ∀ i : grid2.Coords, EltTy.bits .f32 = 32 ∨ (Rect.block (s := S1) S1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)

variable [Facts₀]

def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def gather_S100000_S2100000x1_S2100000_n_0_n_n_0_1_1 : GatherDims S100000 S2100000x1 S2100000 where
  offsetDims := []
  collapsedSliceDims := [0]
  operandBatchingDims := []
  startIndicesBatchingDims := []
  startIndexMap := [0]
  indexVectorDim := 1
  sliceSizes := ![1]
  wf := gather_S100000_S2100000x1_S2100000_n_0_n_n_0_1_1_wf
def dot_S5000x2_S2x128_S5000x128_1_0_0_1_n_n : DotDims S5000x2 S2x128 S5000x128 where
  lhsContracting := [1]
  rhsContracting := [0]
  lhsNonContracting := [0]
  rhsNonContracting := [1]
  lhsBatch := []
  rhsBatch := []
  wf := dot_S5000x2_S2x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def dot_S5000x19_S19x32_S5000x32_1_0_0_1_n_n : DotDims S5000x19 S19x32 S5000x32 where
  lhsContracting := [1]
  rhsContracting := [0]
  lhsNonContracting := [0]
  rhsNonContracting := [1]
  lhsBatch := []
  rhsBatch := []
  wf := dot_S5000x19_S19x32_S5000x32_1_0_0_1_n_n_wf
def gather_S100000x32_S2100000x1_S2100000x32_1_0_n_n_0_1_132 : GatherDims S100000x32 S2100000x1 S2100000x32 where
  offsetDims := [1]
  collapsedSliceDims := [0]
  operandBatchingDims := []
  startIndicesBatchingDims := []
  startIndexMap := [0]
  indexVectorDim := 1
  sliceSizes := ![1, 32]
  wf := gather_S100000x32_S2100000x1_S2100000x32_1_0_n_n_0_1_132_wf
def scatter_S100000x32_S2100000x1_S2100000x32_1_0_0_1 : ScatterDims S100000x32 S2100000x1 S2100000x32 where
  updateWindowDims := [1]
  insertedWindowDims := [0]
  scatterDimsToOperandDims := [0]
  indexVectorDim := 1
  wf := scatter_S100000x32_S2100000x1_S2100000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S19x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S5000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v45) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S32x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S5000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x3 : Shape := ⟨2, ![100000, 3]⟩
abbrev S100000x2 : Shape := ⟨2, ![100000, 2]⟩
abbrev S2x2000000 : Shape := ⟨2, ![2, 2000000]⟩
abbrev S2000000 : Shape := ⟨1, ![2000000]⟩
abbrev S2x128 : Shape := ⟨2, ![2, 128]⟩
abbrev S128 : Shape := ⟨1, ![128]⟩
abbrev S128x16 : Shape := ⟨2, ![128, 16]⟩
abbrev S16 : Shape := ⟨1, ![16]⟩
abbrev S19x32 : Shape := ⟨2, ![19, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x2000000 : Shape := ⟨2, ![1, 2000000]⟩
abbrev S2100000 : Shape := ⟨1, ![2100000]⟩
abbrev S_ : Shape := ⟨0, ![]⟩
abbrev S100000x128 : Shape := ⟨2, ![100000, 128]⟩
abbrev S1x128 : Shape := ⟨2, ![1, 128]⟩
abbrev S100000x16 : Shape := ⟨2, ![100000, 16]⟩
abbrev S1x16 : Shape := ⟨2, ![1, 16]⟩
abbrev S100000x19 : Shape := ⟨2, ![100000, 19]⟩
abbrev S100000x32 : Shape := ⟨2, ![100000, 32]⟩
abbrev S2100000x1 : Shape := ⟨2, ![2100000, 1]⟩
abbrev S2100000x32 : Shape := ⟨2, ![2100000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S100000x3, .f32⟩
  | 1 => ⟨S100000x2, .f32⟩
  | 2 => ⟨S2x2000000, .i32⟩
  | 3 => ⟨S2000000, .f32⟩
  | 4 => ⟨S2x128, .f32⟩
  | 5 => ⟨S128, .f32⟩
  | 6 => ⟨S128x16, .f32⟩
  | 7 => ⟨S16, .f32⟩
  | 8 => ⟨S19x32, .f32⟩
  | 9 => ⟨S32, .f32⟩
  | 10 => ⟨S32x32, .f32⟩
  | 11 => ⟨S32, .f32⟩
  | 12 => ⟨S32x1, .f32⟩
  | 13 => ⟨S1, .f32⟩
  | 14 => ⟨S100000, .i32⟩
  | 15 => ⟨S1x2000000, .i32⟩
  | 16 => ⟨S2000000, .i32⟩
  | 17 => ⟨S2100000, .i32⟩
  | 18 => ⟨S1x2000000, .i32⟩
  | 19 => ⟨S2000000, .i32⟩
  | 20 => ⟨S2100000, .i32⟩
  | 21 => ⟨S_, .f32⟩
  | 22 => ⟨S100000, .f32⟩
  | 23 => ⟨S2100000, .f32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S100000x16, .f32⟩
  | 32 => ⟨S1x16, .f32⟩
  | 33 => ⟨S100000x16, .f32⟩
  | 34 => ⟨S100000x16, .f32⟩
  | 35 => ⟨S100000x19, .f32⟩
  | 36 => ⟨S100000x32, .f32⟩
  | 37 => ⟨S_, .f32⟩
  | 38 => ⟨S100000, .f32⟩
  | 39 => ⟨S2100000x1, .i32⟩
  | 40 => ⟨S100000, .f32⟩
  | 41 => ⟨S_, .f32⟩
  | 42 => ⟨S100000, .f32⟩
  | 43 => ⟨S100000, .i1⟩
  | 44 => ⟨S100000, .f32⟩
  | 45 => ⟨S_, .f32⟩
  | 46 => ⟨S_, .f32⟩
  | 47 => ⟨S100000, .f32⟩
  | 48 => ⟨S100000, .f32⟩
  | 49 => ⟨S_, .i32⟩
  | 50 => ⟨S2100000, .i32⟩
  | 51 => ⟨S2100000, .i1⟩
  | 52 => ⟨S_, .i32⟩
  | 53 => ⟨S2100000, .i32⟩
  | 54 => ⟨S2100000, .i32⟩
  | 55 => ⟨S2100000, .i32⟩
  | 56 => ⟨S2100000x1, .i32⟩
  | 57 => ⟨S2100000, .f32⟩
  | 58 => ⟨S2100000, .f32⟩
  | 59 => ⟨S_, .i32⟩
  | 60 => ⟨S2100000, .i32⟩
  | 61 => ⟨S2100000, .i1⟩
  | 62 => ⟨S_, .i32⟩
  | 63 => ⟨S2100000, .i32⟩
  | 64 => ⟨S2100000, .i32⟩
  | 65 => ⟨S2100000, .i32⟩
  | 66 => ⟨S2100000x1, .i32⟩
  | 67 => ⟨S2100000, .f32⟩
  | 68 => ⟨S2100000, .f32⟩
  | 69 => ⟨S_, .i32⟩
  | 70 => ⟨S2100000, .i32⟩
  | 71 => ⟨S2100000, .i1⟩
  | 72 => ⟨S_, .i32⟩
  | 73 => ⟨S2100000, .i32⟩
  | 74 => ⟨S2100000, .i32⟩
  | 75 => ⟨S2100000, .i32⟩
  | 76 => ⟨S2100000x1, .i32⟩
  | 77 => ⟨S2100000x32, .f32⟩
  | 78 => ⟨S2100000x1, .f32⟩
  | 79 => ⟨S2100000x32, .f32⟩
  | 80 => ⟨S2100000x32, .f32⟩
  | 81 => ⟨S_, .f32⟩
  | 82 => ⟨S100000x32, .f32⟩
  | 83 => ⟨S2100000x1, .i32⟩
  | 84 => ⟨S100000x32, .f32⟩
  | 85 => ⟨S1x32, .f32⟩
  | 86 => ⟨S100000x32, .f32⟩
  | 87 => ⟨S100000x32, .f32⟩
  | 88 => ⟨S_, .f32⟩
  | 89 => ⟨S100000x32, .f32⟩
  | 90 => ⟨S100000x32, .f32⟩
  | 91 => ⟨S100000x32, .f32⟩
  | 92 => ⟨S_, .f32⟩
  | 93 => ⟨S100000, .f32⟩
  | 94 => ⟨S2100000x1, .i32⟩
  | 95 => ⟨S100000, .f32⟩
  | 96 => ⟨S_, .f32⟩
  | 97 => ⟨S100000, .f32⟩
  | 98 => ⟨S100000, .i1⟩
  | 99 => ⟨S100000, .f32⟩
  | 100 => ⟨S_, .f32⟩
  | 101 => ⟨S_, .f32⟩
  | 102 => ⟨S100000, .f32⟩
  | 103 => ⟨S100000, .f32⟩
  | 104 => ⟨S_, .i32⟩
  | 105 => ⟨S2100000, .i32⟩
  | 106 => ⟨S2100000, .i1⟩
  | 107 => ⟨S_, .i32⟩
  | 108 => ⟨S2100000, .i32⟩
  | 109 => ⟨S2100000, .i32⟩
  | 110 => ⟨S2100000, .i32⟩
  | 111 => ⟨S2100000x1, .i32⟩
  | 112 => ⟨S2100000, .f32⟩
  | 113 => ⟨S2100000, .f32⟩
  | 114 => ⟨S_, .i32⟩
  | 115 => ⟨S2100000, .i32⟩
  | 116 => ⟨S2100000, .i1⟩
  | 117 => ⟨S_, .i32⟩
  | 118 => ⟨S2100000, .i32⟩
  | 119 => ⟨S2100000, .i32⟩
  | 120 => ⟨S2100000, .i32⟩
  | 121 => ⟨S2100000x1, .i32⟩
  | 122 => ⟨S2100000, .f32⟩
  | 123 => ⟨S2100000, .f32⟩
  | 124 => ⟨S_, .i32⟩
  | 125 => ⟨S2100000, .i32⟩
  | 126 => ⟨S2100000, .i1⟩
  | 127 => ⟨S_, .i32⟩
  | _ => ⟨S100000x3, .f32⟩

abbrev hbmTy0_1 (i : Nat) : BufTy := match i % 128 with
  | 0 => ⟨S2100000, .i32⟩
  | 1 => ⟨S2100000, .i32⟩
  | 2 => ⟨S2100000, .i32⟩
  | 3 => ⟨S2100000x1, .i32⟩
  | 4 => ⟨S2100000x32, .f32⟩
  | 5 => ⟨S2100000x1, .f32⟩
  | 6 => ⟨S2100000x32, .f32⟩
  | 7 => ⟨S2100000x32, .f32⟩
  | 8 => ⟨S_, .f32⟩
  | 9 => ⟨S100000x32, .f32⟩
  | 10 => ⟨S2100000x1, .i32⟩
  | 11 => ⟨S100000x32, .f32⟩
  | 12 => ⟨S1x32, .f32⟩
  | 13 => ⟨S100000x32, .f32⟩
  | 14 => ⟨S100000x32, .f32⟩
  | 15 => ⟨S_, .f32⟩
  | 16 => ⟨S100000x32, .f32⟩
  | 17 => ⟨S100000x32, .f32⟩
  | 18 => ⟨S100000x1, .f32⟩
  | 19 => ⟨S1x1, .f32⟩
  | 20 => ⟨S100000x1, .f32⟩
  | 21 => ⟨S100000x1, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_cst : Ref sig .tc := ⟨.hbm, 28, rfl⟩
abbrev main_call0_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_v26 : Ref sig .tc := ⟨.hbm, 48, rfl⟩
abbrev main_c : Ref sig .tc := ⟨.hbm, 49, rfl⟩
abbrev main_v27 : Ref sig .tc := ⟨.hbm, 50, rfl⟩
abbrev main_v28 : Ref sig .tc := ⟨.hbm, 51, rfl⟩
abbrev main_c_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_4 : Ref sig .tc := ⟨.hbm, 59, rfl⟩
abbrev main_v35 : Ref sig .tc := ⟨.hbm, 60, rfl⟩
abbrev main_v36 : Ref sig .tc := ⟨.hbm, 61, rfl⟩
abbrev main_c_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_6 : Ref sig .tc := ⟨.hbm, 69, rfl⟩
abbrev main_v43 : Ref sig .tc := ⟨.hbm, 70, rfl⟩
abbrev main_v44 : Ref sig .tc := ⟨.hbm, 71, rfl⟩
abbrev main_c_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call2_cst : Ref sig .tc := ⟨.hbm, 88, rfl⟩
abbrev main_call2_v0 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_call3_v0 : Ref sig .tc := ⟨.hbm, 101, rfl⟩
abbrev main_call3_v1 : Ref sig .tc := ⟨.hbm, 102, rfl⟩
abbrev main_v67 : Ref sig .tc := ⟨.hbm, 103, rfl⟩
abbrev main_c_12 : Ref sig .tc := ⟨.hbm, 104, rfl⟩
abbrev main_v68 : Ref sig .tc := ⟨.hbm, 105, rfl⟩
abbrev main_v69 : Ref sig .tc := ⟨.hbm, 106, rfl⟩
abbrev main_c_13 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_14 : Ref sig .tc := ⟨.hbm, 114, rfl⟩
abbrev main_v76 : Ref sig .tc := ⟨.hbm, 115, rfl⟩
abbrev main_v77 : Ref sig .tc := ⟨.hbm, 116, rfl⟩
abbrev main_c_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_16 : Ref sig .tc := ⟨.hbm, 124, rfl⟩
abbrev main_v84 : Ref sig .tc := ⟨.hbm, 125, rfl⟩
abbrev main_v85 : Ref sig .tc := ⟨.hbm, 126, rfl⟩
abbrev main_c_17 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_18 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_call4_cst : Ref sig .tc := ⟨.hbm, 143, rfl⟩
abbrev main_call4_v0 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S100000 : S_.BroadcastsInDim S100000 (![] : Fin 0 → Fin S100000.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S100000x3_S100000x16_S100000x19_d1 : Shape.Concatenates [S100000x3, S100000x16] S100000x19 1
  bcast_S2100000_S2100000x1_0 : S2100000.BroadcastsInDim S2100000x1 (![0] : Fin 1 → Fin S2100000x1.rank)
  bcast_S_S2100000 : S_.BroadcastsInDim S2100000 (![] : Fin 0 → Fin S2100000.rank)
  bcast_S2100000x1_S2100000x32_0_1 : S2100000x1.BroadcastsInDim S2100000x32 (![0, 1] : Fin 2 → Fin S2100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x2_S2x128_S100000x128_1_0_0_1_n_n_wf : DotDims.WF S100000x2 S2x128 S100000x128 [1] [0] [0] [1] [] []
  dot_S100000x128_S128x16_S100000x16_1_0_0_1_n_n_wf : DotDims.WF S100000x128 S128x16 S100000x16 [1] [0] [0] [1] [] []
  dot_S100000x19_S19x32_S100000x32_1_0_0_1_n_n_wf : DotDims.WF S100000x19 S19x32 S100000x32 [1] [0] [0] [1] [] []
  scatter_S100000_S2100000x1_S2100000_n_0_0_1_wf : ScatterDims.WF S100000 S2100000x1 S2100000 [] [0] [0] 1
  gather_S100000_S2100000x1_S2100000_n_0_n_n_0_1_1_wf : GatherDims.WF S100000 S2100000x1 S2100000 [] [0] [] [0] [] 1 ![1]
  gather_S100000x32_S2100000x1_S2100000x32_1_0_n_n_0_1_132_wf : GatherDims.WF S100000x32 S2100000x1 S2100000x32 [1] [0] [] [0] [] 1 ![1, 32]
  scatter_S100000x32_S2100000x1_S2100000x32_1_0_0_1_wf : ScatterDims.WF S100000x32 S2100000x1 S2100000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []

variable [Facts₀]

def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def dot_S100000x19_S19x32_S100000x32_1_0_0_1_n_n : DotDims S100000x19 S19x32 S100000x32 where
  lhsContracting := [1]
  rhsContracting := [0]
  lhsNonContracting := [0]
  rhsNonContracting := [1]
  lhsBatch := []
  rhsBatch := []
  wf := dot_S100000x19_S19x32_S100000x32_1_0_0_1_n_n_wf
def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def gather_S100000_S2100000x1_S2100000_n_0_n_n_0_1_1 : GatherDims S100000 S2100000x1 S2100000 where
  offsetDims := []
  collapsedSliceDims := [0]
  operandBatchingDims := []
  startIndicesBatchingDims := []
  startIndexMap := [0]
  indexVectorDim := 1
  sliceSizes := ![1]
  wf := gather_S100000_S2100000x1_S2100000_n_0_n_n_0_1_1_wf
def gather_S100000x32_S2100000x1_S2100000x32_1_0_n_n_0_1_132 : GatherDims S100000x32 S2100000x1 S2100000x32 where
  offsetDims := [1]
  collapsedSliceDims := [0]
  operandBatchingDims := []
  startIndicesBatchingDims := []
  startIndexMap := [0]
  indexVectorDim := 1
  sliceSizes := ![1, 32]
  wf := gather_S100000x32_S2100000x1_S2100000x32_1_0_n_n_0_1_132_wf
def scatter_S100000x32_S2100000x1_S2100000x32_1_0_0_1 : ScatterDims S100000x32 S2100000x1 S2100000x32 where
  updateWindowDims := [1]
  insertedWindowDims := [0]
  scatterDimsToOperandDims := [0]
  indexVectorDim := 1
  wf := scatter_S100000x32_S2100000x1_S2100000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  THE KERNEL PROGRAM'S RUN, WITH ITS RESULT NAMED.

  The program is three kernel regions among stretches of host operations. Its generated frame follows the buffer
  contents from the launch through every stretch and region to the return, and reads the argument arrays off the last
  contents. Read off the same last contents, the program's result array is what the third region leaves in it. So:
  every weakly fair execution terminates, nothing faults, the result array ends at the last contents' value of its
  buffer, and the arguments end as launched.
-/
import proofs.«106256_j53824530153898_1_alg».proof.Proof.Gen.KernelIdeal.Frame

set_option maxRecDepth 16384

noncomputable section

namespace Cert.Gcn.KernelSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result array at the contents the last region leaves, the arguments as launched. -/
theorem run_last : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.Gcn.KernelSide

end
-- ==== Proof.KernelHost.lean ====
/-
  THE HOST STRETCHES OF THE KERNEL PROGRAM, READ.

  Between its regions the kernel program runs the graph plumbing as host operations: the self loops appended to the
  edge list, the weighted degree at the targets, its inverse square root where positive, the edge normalisation, and,
  after each of the first two regions, the rows gathered along the edges, scaled and added up at the targets. The
  reference runs the same operations; each buffer the kernel program computes on the host is read here, one stretch at
  a time, as the reference's stage of the same operations — by the operations' results, never by their contents.
-/
import proofs.«106256_j53824530153898_1_alg».proof.Proof.Gen.KernelIdeal.Frame
import proofs.«106256_j53824530153898_1_alg».proof.Proof.Gen.ReferenceIdeal.Read

set_option maxRecDepth 16384

noncomputable section

/-- What is left after the one-pass reading of a stretch: the operations' results at their own buffers and at
    other buffers, rewritten one at a time with the library's result lemmas. -/
macro "results_loop" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide))))

namespace Cert.Gcn.KernelSide

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg)

/-! ## The first stretch: the edge list with its self loops, the weights, the degree -/

theorem W1_v3 (c : Dev nD) : W1 m ρ c (Proc.devRef .tc main_v3) = val_main_v3 (F := Ideal) (m ((c : Thread nD τ).loc main_arg2)) := by
  show StableHlo.after hostOps0 (W0 m ρ c) (Proc.devRef .tc main_v3) = _
  simp only [hostOps0]
  after_results_simp
  results_loop
  rfl

theorem W1_v6 (c : Dev nD) : W1 m ρ c (Proc.devRef .tc main_v6) = val_main_v6 (F := Ideal) (m ((c : Thread nD τ).loc main_arg2)) := by
  show StableHlo.after hostOps0 (W0 m ρ c) (Proc.devRef .tc main_v6) = _
  simp only [hostOps0]
  after_results_simp
  results_loop
  rfl

theorem W1_v8 (c : Dev nD) : W1 m ρ c (Proc.devRef .tc main_v8) = val_main_v8 (F := Ideal) (m ((c : Thread nD τ).loc main_arg3)) := by
  show StableHlo.after hostOps0 (W0 m ρ c) (Proc.devRef .tc main_v8) = _
  simp only [hostOps0]
  after_results_simp
  rfl

theorem W1_v11 (c : Dev nD) : W1 m ρ c (Proc.devRef .tc main_v11)
    = val_main_v22 (F := Ideal) (m ((c : Thread nD τ).loc main_arg2)) (m ((c : Thread nD τ).loc main_arg3)) := by
  have h6 := W1_v6 m ρ c
  have h8 := W1_v8 m ρ c
  show StableHlo.after hostOps0 (W0 m ρ c) (Proc.devRef .tc main_v11) = _
  simp only [hostOps0]
  after_results_simp
  results_loop
  rfl

theorem W1_v13 (c : Dev nD) : W1 m ρ c (Proc.devRef .tc main_v13) = val_main_v24 (F := Ideal) (m ((c : Thread nD τ).loc main_arg2)) (m ((c : Thread nD τ).loc main_arg3)) := by
  show StableHlo.after hostOps0 (W0 m ρ c) (Proc.devRef .tc main_v13) = _
  simp only [hostOps0]
  after_results_simp
  results_loop
  rfl

theorem W1_v14 (c : Dev nD) : W1 m ρ c (Proc.devRef .tc main_v14) = val_main_v25 (F := Ideal) (m ((c : Thread nD τ).loc main_arg2)) (m ((c : Thread nD τ).loc main_arg3)) := by
  show StableHlo.after hostOps0 (W0 m ρ c) (Proc.devRef .tc main_v14) = _
  simp only [hostOps0]
  after_results_simp
  results_loop
  rfl

theorem W1_cst2 (c : Dev nD) : W1 m ρ c (Proc.devRef .tc main_cst_2) = val_main_cst_2 (F := Ideal) := by
  show StableHlo.after hostOps0 (W0 m ρ c) (Proc.devRef .tc main_cst_2) = _
  simp only [hostOps0]
  after_results_simp
  rfl

/-! ## The second stretch: the inverse square root of the degree where it is positive, zero elsewhere -/

/-- A value stored at a buffer of its own type, and read back, is itself (the buffers of the called `where`). -/
theorem toBuf_v15 (h1 h2 h3) (X : (⟨S100000, .f32⟩ : BufTy).Contents (Elt Ideal)) :
    (TRef.of (sig := sig) (T := ⟨S100000, .f32⟩) main_v15 h1 h2 h3).toBuf X = X := rfl
theorem ofBuf_v13 (h1 h2 h3) (X : (⟨S100000, .i1⟩ : BufTy).Contents (Elt Ideal)) :
    (TRef.of (sig := sig) (T := ⟨S100000, .i1⟩) main_v13 h1 h2 h3).ofBuf X = X := rfl
theorem ofBuf_v14 (h1 h2 h3) (X : (⟨S100000, .f32⟩ : BufTy).Contents (Elt Ideal)) :
    (TRef.of (sig := sig) (T := ⟨S100000, .f32⟩) main_v14 h1 h2 h3).ofBuf X = X := rfl
theorem toBuf_call0_v1 (h1 h2 h3) (X : (⟨S100000, .f32⟩ : BufTy).Contents (Elt Ideal)) :
    (TRef.of (sig := sig) (T := ⟨S100000, .f32⟩) main_call0_v1 h1 h2 h3).toBuf X = X := rfl
theorem ofBuf_call0_v1 (h1 h2 h3) (X : (⟨S100000, .f32⟩ : BufTy).Contents (Elt Ideal)) :
    (TRef.of (sig := sig) (T := ⟨S100000, .f32⟩) main_call0_v1 h1 h2 h3).ofBuf X = X := rfl
theorem toBuf_call0_v0 (h1 h2 h3) (X : (⟨S_, .f32⟩ : BufTy).Contents (Elt Ideal)) :
    (TRef.of (sig := sig) (T := ⟨S_, .f32⟩) main_call0_v0 h1 h2 h3).toBuf X = X := rfl
theorem ofBuf_call0_v0 (h1 h2 h3) (X : (⟨S_, .f32⟩ : BufTy).Contents (Elt Ideal)) :
    (TRef.of (sig := sig) (T := ⟨S_, .f32⟩) main_call0_v0 h1 h2 h3).ofBuf X = X := rfl
theorem ofBuf_cst2 (h1 h2 h3) (X : (⟨S_, .f32⟩ : BufTy).Contents (Elt Ideal)) :
    (TRef.of (sig := sig) (T := ⟨S_, .f32⟩) main_cst_2 h1 h2 h3).ofBuf X = X := rfl

theorem W2_v15 (c : Dev nD) : W2 m ρ c (Proc.devRef .tc main_v15) = val_main_v26 (F := Ideal) (m ((c : Thread nD τ).loc main_arg2)) (m ((c : Thread nD τ).loc main_arg3)) := by
  have h13 := W1_v13 m ρ c
  have h14 := W1_v14 m ρ c
  have hc2 := W1_cst2 m ρ c
  show StableHlo.after hostOps0_1 (W1 m ρ c) (Proc.devRef .tc main_v15) = _
  generalize W1 m ρ c = V at h13 h14 hc2 ⊢
  simp only [hostOps0_1]
  after_results_simp
  results_loop
  rw [h13, h14, hc2, toBuf_v15, ofBuf_v13, ofBuf_v14, ofBuf_call0_v1, toBuf_call0_v1, ofBuf_call0_v0, toBuf_call0_v0, ofBuf_cst2]
  rfl

theorem W2_v3 (c : Dev nD) : W2 m ρ c (Proc.devRef .tc main_v3) = val_main_v3 (F := Ideal) (m ((c : Thread nD τ).loc main_arg2)) := by
  have h := W1_v3 m ρ c
  show StableHlo.after hostOps0_1 (W1 m ρ c) (Proc.devRef .tc main_v3) = _
  generalize W1 m ρ c = V at h ⊢
  simp only [hostOps0_1]
  after_results_simp
  results_loop
  exact h

theorem W2_v6 (c : Dev nD) : W2 m ρ c (Proc.devRef .tc main_v6) = val_main_v6 (F := Ideal) (m ((c : Thread nD τ).loc main_arg2)) := by
  have h := W1_v6 m ρ c
  show StableHlo.after hostOps0_1 (W1 m ρ c) (Proc.devRef .tc main_v6) = _
  generalize W1 m ρ c = V at h ⊢
  simp only [hostOps0_1]
  after_results_simp
  results_loop
  exact h

theorem W2_v8 (c : Dev nD) : W2 m ρ c (Proc.devRef .tc main_v8) = val_main_v8 (F := Ideal) (m ((c : Thread nD τ).loc main_arg3)) := by
  have h := W1_v8 m ρ c
  show StableHlo.after hostOps0_1 (W1 m ρ c) (Proc.devRef .tc main_v8) = _
  generalize W1 m ρ c = V at h ⊢
  simp only [hostOps0_1]
  after_results_simp
  results_loop
  exact h

/-! ## The third stretch: the edge normalisation, the inverse square roots at both ends times the weight -/

theorem W3_v31 (c : Dev nD) : W3 m ρ c (Proc.devRef .tc main_v31) = val_main_v42 (F := Ideal) (m ((c : Thread nD τ).loc main_arg2)) (m ((c : Thread nD τ).loc main_arg3)) := by
  have h3 := W2_v3 m ρ c
  have h6 := W2_v6 m ρ c
  have h8 := W2_v8 m ρ c
  have h15 := W2_v15 m ρ c
  show StableHlo.after hostOps0_2 (W2 m ρ c) (Proc.devRef .tc main_v31) = _
  generalize W2 m ρ c = V at h3 h6 h8 h15 ⊢
  simp only [hostOps0_2]
  after_results_simp
  results_loop
  rw [h3, h6, h8, h15]
  rfl

theorem W3_v3 (c : Dev nD) : W3 m ρ c (Proc.devRef .tc main_v3) = val_main_v3 (F := Ideal) (m ((c : Thread nD τ).loc main_arg2)) := by
  have h := W2_v3 m ρ c
  show StableHlo.after hostOps0_2 (W2 m ρ c) (Proc.devRef .tc main_v3) = _
  generalize W2 m ρ c = V at h ⊢
  simp only [hostOps0_2]
  after_results_simp
  results_loop
  exact h

theorem W3_v6 (c : Dev nD) : W3 m ρ c (Proc.devRef .tc main_v6) = val_main_v6 (F := Ideal) (m ((c : Thread nD τ).loc main_arg2)) := by
  have h := W2_v6 m ρ c
  show StableHlo.after hostOps0_2 (W2 m ρ c) (Proc.devRef .tc main_v6) = _
  generalize W2 m ρ c = V at h ⊢
  simp only [hostOps0_2]
  after_results_simp
  results_loop
  exact h

end Cert.Gcn.KernelSide

end
-- ==== Proof.LibPlainMatmul.lean ====
/-
  THE PLAIN MATRIX PRODUCT, READ AT AN INDEX.

  A contraction of `l : [A, K]` with `r : [K, B]` over the second axis of the left operand and the first of the right
  (no batch axis) — a `tpu.matmul` or a `stablehlo.dot_general` with those dimension numbers — sums over the dot's own
  contraction index. Re-indexed by the contracted coordinate, element `(p, q)` is `∑ k, l[p, k] · r[k, q]`.

  Proved here for every `A`, `K`, `B` and ANY dimension-number record with those fields:
  * `contraction_apply`: the sum over the record's contraction index is the sum over `k : Fin K`;
  * `matmul_zero_apply` / `dotGeneral_plain_apply`: a `tpu.matmul` from the zero accumulator and the host's `dot_general`
    at `(p, q)`, at the ideal values.
-/
import Idealize.ShloMosaic.PureOps.Ideal
import Idealize.ShloMosaic.PureOps.Ideal.Laws
import Idealize.ShloMosaic.Lib.ValueIdx

noncomputable section

open scoped BigOperators

namespace Cert.Lib.PlainMatmul

open Idealize.ShloMosaic Idealize.ShloMosaic.ValueIdx

variable {A K B : Nat}

/-- The plain product's dimension numbers as a record literal (its conditions `wf` arbitrary). -/
abbrev plainDot (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- On the left operand's row axis the dot's left index is the result's row. -/
theorem plainDot_lhs_zero (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).lhsIdx j c 0).val = (j 0).val := by
  unfold DotDims.lhsIdx
  rw [dif_neg (show ¬(0 : Fin 2) ∈ (plainDot A K B wf).lhsBatch from List.not_mem_nil),
    dif_pos (show (0 : Fin 2) ∈ (plainDot A K B wf).lhsNonContracting from List.mem_singleton.mpr rfl)]
  rfl

/-- On the right operand's column axis the dot's right index is the result's column. -/
theorem plainDot_rhs_one (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).rhsIdx j c 1).val = (j 1).val := by
  unfold DotDims.rhsIdx
  rw [dif_neg (show ¬(1 : Fin 2) ∈ (plainDot A K B wf).rhsBatch from List.not_mem_nil),
    dif_pos (show (1 : Fin 2) ∈ (plainDot A K B wf).rhsNonContracting from List.mem_singleton.mpr rfl)]
  rfl

/-- The contraction of the record literal at `(p, q)`, re-indexed by the contracted coordinate. -/
theorem plainDot_contraction (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (p : Fin A) (q : Fin B) :
    ∑ k : (plainDot A K B wf).contr.Idx, l ((plainDot A K B wf).lhsIdx (ix2 p q) k) * r ((plainDot A K B wf).rhsIdx (ix2 p q) k)
      = ∑ k : Fin K, l (ix2 p k) * r (ix2 k q) := by
  rw [← Equiv.sum_comp (contrEquiv1 (plainDot A K B wf) K rfl rfl).symm]
  refine Finset.sum_congr rfl fun k _ => ?_
  have hk := contrEquiv1_symm_val (plainDot A K B wf) K rfl rfl k
  have el : (plainDot A K B wf).lhsIdx (ix2 p q) ((contrEquiv1 (plainDot A K B wf) K rfl rfl).symm k) = ix2 p k :=
    funext fun a => Fin.ext (by
      match a with
      | ⟨0, _⟩ => exact plainDot_lhs_zero wf _ _
      | ⟨1, _⟩ => exact ((plainDot A K B wf).lhsIdx_val_of_single rfl (ix2 p q) _).trans hk)
  have er : (plainDot A K B wf).rhsIdx (ix2 p q) ((contrEquiv1 (plainDot A K B wf) K rfl rfl).symm k) = ix2 k q :=
    funext fun a => Fin.ext (by
      match a with
      | ⟨0, _⟩ => exact ((plainDot A K B wf).rhsIdx_val_of_single rfl (ix2 p q) _).trans hk
      | ⟨1, _⟩ => exact plainDot_rhs_one wf _ _)
  rw [el, er]

/-- THE CONTRACTION AT `(p, q)`, for any record with the plain product's fields: `∑ k, l[p, k] · r[k, q]`. -/
theorem contraction_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![A, K]⟩ : Shape).Idx → EReal) (r : (⟨2, ![K, B]⟩ : Shape).Idx → EReal) (p : Fin A) (q : Fin B) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  exact plainDot_contraction wf l r p q

/-- A `tpu.matmul` from the zero accumulator at `(p, q)`, at the ideal values. -/
theorem matmul_zero_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![A, K]⟩ .f32) (r : FVec Ideal ⟨2, ![K, B]⟩ .f32) (p : Fin A) (q : Fin B) :
    FloatOps.matmul d prec l r (constant (F := Ideal) ⟨2, ![A, B]⟩ .f32 0x00000000#32) (ix2 p q)
      = ∑ k : Fin K, l (ix2 p k) * r (ix2 k q) :=
  (Ideal.matmul_constant_zero_apply d prec l r (ix2 p q)).trans (contraction_apply d h1 h2 h3 h4 h5 h6 l r p q)

/-- The host's `dot_general` at `(p, q)`, at the ideal values. -/
theorem dotGeneral_plain_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![A, K]⟩ .f32) (r : FVec Ideal ⟨2, ![K, B]⟩ .f32) (p : Fin A) (q : Fin B) :
    FloatOps.dotGeneral d prec sched l r (ix2 p q) = ∑ k : Fin K, l (ix2 p k) * r (ix2 k q) :=
  (Ideal.dotGeneral_apply d prec sched l r (ix2 p q)).trans (contraction_apply d h1 h2 h3 h4 h5 h6 l r p q)

end Cert.Lib.PlainMatmul

end
-- ==== Proof.LibColumnForms.lean ====
/-
  COLUMN AND ROW FORMS READ AT AN INDEX.

  The small layout steps between a vector and a matrix with a unit axis, for every extent and element type:
  * `broadcastTo_col_apply`: a column `[a, 1]` broadcast along the lanes to `[a, b]` reads, at `(p, q)`, the column at `(p, 0)`;
  * `broadcastTo_row_apply`: a row `[1, b]` broadcast along the rows to `[a, b]` reads, at `(p, q)`, the row at `(0, q)`;
  * `shapeCast_col_apply`: a vector `[a]` reshaped to a column `[a, 1]` reads, at `(p, 0)`, the vector at `p`;
  * `shapeCast_row_apply`: a vector `[b]` reshaped to a row `[1, b]` reads, at `(0, q)`, the vector at `q`.
-/
import Idealize.ShloMosaic.Lib.Pipeline.Value
import Idealize.ShloMosaic.Lib.ValueIdx

noncomputable section

namespace Cert.Lib.ColumnForms

open Idealize.ShloMosaic Idealize.ShloMosaic.ValueIdx

variable {α : Type} {a b : Nat}

/-- A column broadcast along the lanes. -/
theorem broadcastTo_col_apply (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p 0) :=
  broadcastTo_apply x h (ix2 p q) (ix2 p 0) (fun ax => by
    match ax with
    | ⟨0, _⟩ =>
      show p.val = if a = 1 then 0 else p.val
      by_cases ha : a = 1
      · rw [if_pos ha]; have := p.isLt; omega
      · rw [if_neg ha]
    | ⟨1, _⟩ =>
      show 0 = if (1 : Nat) = 1 then 0 else q.val
      rw [if_pos rfl])

/-- A row broadcast along the rows. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun ax => by
    match ax with
    | ⟨0, _⟩ =>
      show 0 = if (1 : Nat) = 1 then 0 else p.val
      rw [if_pos rfl]
    | ⟨1, _⟩ =>
      show q.val = if b = 1 then 0 else q.val
      by_cases hb : b = 1
      · rw [if_pos hb]; have := q.isLt; omega
      · rw [if_neg hb])

/-- A vector reshaped to a column. -/
theorem shapeCast_col_apply (v : (⟨1, ![a]⟩ : Shape).Idx → α)
    (h : (⟨1, ![a]⟩ : Shape).ShapeCasts ⟨2, ![a, 1]⟩) (p : Fin a) :
    shapeCast ⟨2, ![a, 1]⟩ v h (ix2 p 0) = v (ix1 p) :=
  shapeCast_apply v h (ix2 p 0) (ix1 p) (by
    rw [Shape.rowMajor_val_one, Shape.rowMajor_val_two]
    show p.val = p.val * 1 + 0
    omega)

/-- A vector reshaped to a row. -/
theorem shapeCast_row_apply (v : (⟨1, ![b]⟩ : Shape).Idx → α)
    (h : (⟨1, ![b]⟩ : Shape).ShapeCasts ⟨2, ![1, b]⟩) (q : Fin b) :
    shapeCast ⟨2, ![1, b]⟩ v h (ix2 0 q) = v (ix1 q) :=
  shapeCast_apply v h (ix2 0 q) (ix1 q) (by
    rw [Shape.rowMajor_val_one, Shape.rowMajor_val_two]
    show q.val = 0 * b + q.val
    omega)

end Cert.Lib.ColumnForms

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibAttnReads.lean ====
/-
  Two readings at an index that an attention block needs beside the ones for sums and stacked products.

  The largest entry along the LAST axis of a rank-three array [a, b, c], taken from the accumulator at minus
  infinity and read at (p, q), is the fold of max from that accumulator's value over the entries (p, q, k).

  The plain product of l : [A, K] with r : [K, B] — contracting the left operand's second axis with the right
  operand's first, no batch axis, from the zero accumulator — has at (p, q) the sum over k of l (p, k) · r (k, q),
  whatever float formats the two operands are stored in: at the ideal values a format is not a property of a number.
  General in the extents.
-/
import Idealize.ShloMosaic.Lib.Pipeline.Value
import Idealize.ShloMosaic.Lib.ValueIdx
import Idealize.ShloMosaic.PureOps.Ideal.Laws
import proofs.«106256_j53824530153898_1_alg».proof.Proof.LibAxisReads
import proofs.«106256_j53824530153898_1_alg».proof.Proof.LibPlainMatmul

namespace Cert.AttnReads

open Idealize.ShloMosaic Idealize.ShloMosaic.ValueIdx

/-- Along the last axis of [a, b, c], from the accumulator at minus infinity, at (p, q): the fold of max over the
    entries (p, q, k). -/
theorem max_last {a b c : ℕ} (src : FVec Ideal ⟨3, ![a, b, c]⟩ .f32) (h : (⟨3, ![a, b, c]⟩ : Shape).Reduces [2] ⟨2, ![a, b]⟩)
    (p : Fin a) (q : Fin b) :
    multiReduction .maximumf [2] ⟨2, ![a, b]⟩ src 0xFF800000#32 h (.inl rfl) rfl (ix2 p q)
      = (Finset.univ : Finset (Fin c)).fold max (Ideal.ofBits .f32 0xFF800000#32) (fun k => src (ix3 p q k)) :=
  (Ideal.multiReduction_maximumf_single src 0xFF800000#32 h (.inl rfl) rfl (ix2 p q)).trans
    (congrArg ((Finset.univ : Finset (Fin c)).fold max (Ideal.ofBits .f32 0xFF800000#32))
      (funext fun k => congrArg src (Cert.AxisReads.lift_last h p q k)))

/-- The plain product from the zero accumulator at (p, q), for operands stored in any two formats. -/
theorem matmul_any_apply {A K B : ℕ} {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![A, K]⟩ φ₁) (r : FVec Ideal ⟨2, ![K, B]⟩ φ₂) (p : Fin A) (q : Fin B) :
    matmul d prec l r (constant ⟨2, ![A, B]⟩ .f32 0x00000000#32) (ix2 p q) = ∑ k : Fin K, l (ix2 p k) * r (ix2 k q) := by
  simp only [matmul]
  exact (Ideal.matmul_constant_zero_apply d prec l r (ix2 p q)).trans
    (Cert.Lib.PlainMatmul.contraction_apply d h1 h2 h3 h4 h5 h6 l r p q)

end Cert.AttnReads
-- ==== Proof.RowStages.lean ====
/-
  THE DENSE STAGES, ROW BY ROW.

  Every dense stage of the network acts on each node (each row) separately:

  * the encoder:  hid r k  = max (Σ_l c[r,l]·We1[l,k] + be1[k]) 0,
                  emb r j  = Σ_k hid r k · We2[k,j] + be2[j],
                  feat r   = (x[r,0..2], emb r 0..15)            -- 3 + 16 = 19 columns side by side
                  enc r q  = Σ_k feat r k · W1[k,q];
  * a layer step: step r q = Σ_k max (agg[r,k] + b[k]) 0 · W[k,q];
  * the head:     head r 0 = step r 0 + bfc[0].

  They are stated here for any number of rows, so that a tile of 5000 rows and the whole array of 100000 rows are
  instances of one definition, and a row of the whole array read through a tile is the tile's row by unfolding.
  Beside them, the small reads they are assembled from: two column blocks side by side read at a column, and a
  product from the zero accumulator with a row vector added to every row.
-/
import Idealize.ShloMosaic.PureOps.Ideal
import Idealize.ShloMosaic.PureOps.Ideal.Laws
import Idealize.ShloMosaic.Lib.ValueIdx
import Idealize.ShloMosaic.Lib.Pipeline.Value
import proofs.«106256_j53824530153898_1_alg».proof.Proof.LibPlainMatmul
import proofs.«106256_j53824530153898_1_alg».proof.Proof.LibColumnForms
import proofs.«106256_j53824530153898_1_alg».proof.Proof.LibAttnReads

noncomputable section

open scoped BigOperators

namespace Cert.Gcn

open Idealize.ShloMosaic Idealize.ShloMosaic.ValueIdx

/-- A matrix and a vector of extended reals over literal extents. -/
abbrev Mat (a b : ℕ) : Type := (⟨2, ![a, b]⟩ : Shape).Idx → EReal
abbrev Vc (a : ℕ) : Type := (⟨1, ![a]⟩ : Shape).Idx → EReal

/-- The zero word's value (never evaluated: both programs spell the same word). -/
abbrev zero32 : EReal := Ideal.ofBits .f32 0x00000000#32

variable {n : ℕ}

/-! ## The encoder -/

/-- The hidden layer of the location encoder at node `r`, unit `k`. -/
def hid (c : Mat n 2) (We1 : Mat 2 128) (be1 : Vc 128) (r : Fin n) (k : Fin 128) : EReal :=
  max ((∑ l : Fin 2, c (ix2 r l) * We1 (ix2 l k)) + be1 (ix1 k)) zero32

/-- The location embedding at node `r`, coordinate `j`. -/
def emb (c : Mat n 2) (We1 : Mat 2 128) (be1 : Vc 128) (We2 : Mat 128 16) (be2 : Vc 16) (r : Fin n) (j : Fin 16) : EReal :=
  (∑ k : Fin 128, hid c We1 be1 r k * We2 (ix2 k j)) + be2 (ix1 j)

/-- The node's features: its 3 inputs, then its 16 embedding coordinates. -/
def feat (x : Mat n 3) (c : Mat n 2) (We1 : Mat 2 128) (be1 : Vc 128) (We2 : Mat 128 16) (be2 : Vc 16)
    (r : Fin n) (k : Fin 19) : EReal :=
  if h : k.val < 3 then x (ix2 r ⟨k.val, h⟩) else emb c We1 be1 We2 be2 r ⟨k.val - 3, by have := k.isLt; omega⟩

/-- The first projection at node `r`, column `q`. -/
def encAt (x : Mat n 3) (c : Mat n 2) (We1 : Mat 2 128) (be1 : Vc 128) (We2 : Mat 128 16) (be2 : Vc 16) (W1 : Mat 19 32)
    (r : Fin n) (q : Fin 32) : EReal :=
  ∑ k : Fin 19, feat x c We1 be1 We2 be2 r k * W1 (ix2 k q)

/-- The first projection as an array. -/
def enc (x : Mat n 3) (c : Mat n 2) (We1 : Mat 2 128) (be1 : Vc 128) (We2 : Mat 128 16) (be2 : Vc 16) (W1 : Mat 19 32) :
    Mat n 32 :=
  fun i => encAt x c We1 be1 We2 be2 W1 ⟨(i 0).val, (i 0).isLt⟩ ⟨(i 1).val, (i 1).isLt⟩

theorem enc_apply (x : Mat n 3) (c : Mat n 2) (We1 : Mat 2 128) (be1 : Vc 128) (We2 : Mat 128 16) (be2 : Vc 16) (W1 : Mat 19 32)
    (r : Fin n) (q : Fin 32) : enc x c We1 be1 We2 be2 W1 (ix2 r q) = encAt x c We1 be1 We2 be2 W1 r q := rfl

/-! ## A layer step and the head -/

/-- Bias, rectifier, projection: node `r`, column `q`, for a projection onto `m` columns. -/
def stepAt {m : ℕ} (agg : Mat n 32) (b : Vc 32) (W : Mat 32 m) (r : Fin n) (q : Fin m) : EReal :=
  ∑ k : Fin 32, max (agg (ix2 r k) + b (ix1 k)) zero32 * W (ix2 k q)

def step {m : ℕ} (agg : Mat n 32) (b : Vc 32) (W : Mat 32 m) : Mat n m :=
  fun i => stepAt agg b W ⟨(i 0).val, (i 0).isLt⟩ ⟨(i 1).val, (i 1).isLt⟩

theorem step_apply {m : ℕ} (agg : Mat n 32) (b : Vc 32) (W : Mat 32 m) (r : Fin n) (q : Fin m) :
    step agg b W (ix2 r q) = stepAt agg b W r q := rfl

/-- The head: a step onto one column, plus the output bias. -/
def head (agg : Mat n 32) (b : Vc 32) (W : Mat 32 1) (bfc : Vc 1) : Mat n 1 :=
  fun i => stepAt agg b W ⟨(i 0).val, (i 0).isLt⟩ ⟨(i 1).val, (i 1).isLt⟩ + bfc (ix1 ⟨(i 1).val, (i 1).isLt⟩)

theorem head_apply (agg : Mat n 32) (b : Vc 32) (W : Mat 32 1) (bfc : Vc 1) (r : Fin n) (q : Fin 1) :
    head agg b W bfc (ix2 r q) = stepAt agg b W r q + bfc (ix1 q) := rfl

/-! ## A stage at a row depends on that row only -/

/-- The first projection at a row reads the node arrays at that row only: two instances agree where the rows' entries
    and the weights' entries agree (the row may sit at different positions of arrays of different heights). -/
theorem encAt_congr {n' : ℕ} (x : Mat n 3) (x' : Mat n' 3) (c : Mat n 2) (c' : Mat n' 2)
    (We1 We1' : Mat 2 128) (be1 be1' : Vc 128) (We2 We2' : Mat 128 16) (be2 be2' : Vc 16) (W1 W1' : Mat 19 32)
    (r : Fin n) (r' : Fin n') (q : Fin 32)
    (hx : ∀ k, x (ix2 r k) = x' (ix2 r' k)) (hc : ∀ l, c (ix2 r l) = c' (ix2 r' l))
    (h1 : ∀ l k, We1 (ix2 l k) = We1' (ix2 l k)) (h2 : ∀ k, be1 (ix1 k) = be1' (ix1 k))
    (h3 : ∀ k j, We2 (ix2 k j) = We2' (ix2 k j)) (h4 : ∀ j, be2 (ix1 j) = be2' (ix1 j))
    (h5 : ∀ k q, W1 (ix2 k q) = W1' (ix2 k q)) :
    encAt x c We1 be1 We2 be2 W1 r q = encAt x' c' We1' be1' We2' be2' W1' r' q := by
  unfold encAt feat emb hid
  simp only [hx, hc, h1, h2, h3, h4, h5]

/-- A layer step at a row reads the aggregate at that row only. -/
theorem stepAt_congr {n' m : ℕ} (agg : Mat n 32) (agg' : Mat n' 32) (b b' : Vc 32) (W W' : Mat 32 m)
    (r : Fin n) (r' : Fin n') (q : Fin m)
    (ha : ∀ k, agg (ix2 r k) = agg' (ix2 r' k)) (hb : ∀ k, b (ix1 k) = b' (ix1 k))
    (hW : ∀ k q, W (ix2 k q) = W' (ix2 k q)) :
    stepAt agg b W r q = stepAt agg' b' W' r' q := by
  unfold stepAt
  simp only [ha, hb, hW]

/-- Row `p` of tile `t` among tiles of 5000 rows. -/
def tileRow (t p : ℕ) (ht : t < 20) (hp : p < 5000) : Fin 100000 := ⟨t * 5000 + p, by omega⟩

/-- The zero offset of a whole-block access, rank two and rank one. -/
theorem zero2 : (![0, 0] : Fin 2 → Nat) = fun _ => 0 := funext fun a => by fin_cases a <;> rfl
theorem zero1 : (![0] : Fin 1 → Nat) = fun _ => 0 := funext fun a => by fin_cases a; rfl

/-! ## The small reads -/

/-- Two column blocks side by side, read at a column: the left block below its width, the right block past it. -/
theorem concat_cols_apply {a b : ℕ} {α : Type} (x : (⟨2, ![n, a]⟩ : Shape).Idx → α) (y : (⟨2, ![n, b]⟩ : Shape).Idx → α)
    (h : Shape.Concatenates [⟨2, ![n, a]⟩, ⟨2, ![n, b]⟩] ⟨2, ![n, a + b]⟩ 1) (r : Fin n) (k : Fin (a + b)) :
    concatenate ⟨2, ![n, a + b]⟩ 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left (1 : Fin 2) x y h (ix2 r k) rfl (ix2 r ⟨k.val, hk⟩) (fun bx => by
      match bx with
      | ⟨0, _⟩ => rfl
      | ⟨1, _⟩ => rfl)
  · rw [dif_neg hk]
    exact concatenate_pair_apply_right (1 : Fin 2) x y h (ix2 r k) rfl rfl (ix2 r ⟨k.val - a, by have := k.isLt; omega⟩)
      (fun bx hb => by
        match bx with
        | ⟨0, _⟩ => rfl
        | ⟨1, _⟩ => exact absurd rfl hb)
      (by show (k.val - a) + a = k.val; omega)

/-- A row vector, reshaped to one row and repeated down the rows, read at `(p, q)`. -/
theorem rowBias_apply {a b : ℕ} {α : Type} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (Cert.Lib.ColumnForms.broadcastTo_row_apply _ hb p q).trans (Cert.Lib.ColumnForms.shapeCast_row_apply v hc q)

/-- A product from the zero accumulator with a row vector added to every row, at `(p, q)`: the sum over the contracted
    coordinate plus the vector's entry of the column, whatever formats the two factors are stored in. -/
theorem dense_bias_apply {A K B : ℕ} {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (F := Ideal) (matmul d none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (F := Ideal) d none l r (constant ⟨2, ![A, B]⟩ .f32 0x00000000#32) (ix2 p q)
      + broadcastTo ⟨2, ![A, B]⟩ (shapeCast ⟨2, ![1, B]⟩ v hc) hb (ix2 p q) = _
  rw [Cert.AttnReads.matmul_any_apply d h1 h2 h3 h4 h5 h6 none l r p q, rowBias_apply v hc hb p q]

/-- A row bias added to every row, then the rectifier, at `(p, k)`. -/
theorem bias_relu_apply {A B : ℕ} (x : FVec Ideal ⟨2, ![A, B]⟩ .f32) (v : FVec Ideal ⟨1, ![B]⟩ .f32)
    (hs : (⟨2, ![A, B]⟩ : Shape).ShapeCasts ⟨2, ![A, B]⟩)
    (hc : (⟨1, ![B]⟩ : Shape).ShapeCasts ⟨2, ![1, B]⟩) (hb : (⟨2, ![1, B]⟩ : Shape).Broadcasts ⟨2, ![A, B]⟩)
    (p : Fin A) (k : Fin B) :
    maximumf (F := Ideal) (addf (shapeCast ⟨2, ![A, B]⟩ x hs) (broadcastTo ⟨2, ![A, B]⟩ (shapeCast ⟨2, ![1, B]⟩ v hc) hb))
        (broadcast ⟨2, ![A, B]⟩ (Scalar.ofBits .f32 0x00000000#32)) (ix2 p k)
      = max (x (ix2 p k) + v (ix1 k)) zero32 := by
  show max (shapeCast ⟨2, ![A, B]⟩ x hs (ix2 p k) + broadcastTo ⟨2, ![A, B]⟩ (shapeCast ⟨2, ![1, B]⟩ v hc) hb (ix2 p k)) zero32 = _
  rw [shapeCast_self x hs, rowBias_apply v hc hb p k]

end Cert.Gcn

end
-- ==== Proof.KernelPayloads.lean ====
/-
  WHAT ONE TILE COMPUTES.

  Each of the three kernels loads a tile of 5000 rows (and the small weight arrays whole), and stores one value: the
  last matrix product (plus, in the head, the output bias). Read at row `p`, column `q` of the tile, that value is
  the row-wise stage of the same name at the tile's row `p`: a product from the zero accumulator is the sum over the
  contracted coordinate; rounding a value to a shorter format is the identity at the ideal values; a bias reshaped to a
  row and repeated down the rows adds the bias's entry of the column; the rectifier is the larger of the entry and zero;
  two column blocks side by side are read in the left block below its width and in the right block past it.
-/
import proofs.«106256_j53824530153898_1_alg».proof.Proof.Gen.KernelIdeal.Skeleton
import proofs.«106256_j53824530153898_1_alg».proof.Proof.RowStages

noncomputable section

open scoped BigOperators

namespace Cert.Gcn.KernelSide

open Idealize.ShloMosaic Idealize.ShloMosaic.ValueIdx Cert.KernelIdeal Cert.KernelIdeal.Gen Cert.Gcn

/-- The hidden layer of the encoder on a tile. -/
theorem hid_tile (x1 : Vec Ideal S5000x2 .f32) (x2 : Vec Ideal S2x128 .f32) (x3 : Vec Ideal S128 .f32) (p : Fin 5000) (k : Fin 128) :
    maximumf (F := Ideal)
        (addf (matmul dot_S5000x2_S2x128_S5000x128_1_0_0_1_n_n none (truncf .bf16 x1 bitsLt_bf16_f32) (truncf .bf16 x2 bitsLt_bf16_f32)
            (constant S5000x128 .f32 0x00000000#32))
          (broadcastTo S5000x128 (shapeCast S1x128 x3 shapeCasts_S128_S1x128) broadcasts_S1x128_S5000x128))
        (broadcast S5000x128 (Scalar.ofBits .f32 0x00000000#32)) (ix2 p k)
      = hid x1 x2 x3 p k := by
  show max (matmul (F := Ideal) dot_S5000x2_S2x128_S5000x128_1_0_0_1_n_n none (truncf .bf16 x1 bitsLt_bf16_f32) (truncf .bf16 x2 bitsLt_bf16_f32)
            (constant S5000x128 .f32 0x00000000#32) (ix2 p k)
          + broadcastTo S5000x128 (shapeCast S1x128 x3 shapeCasts_S128_S1x128) broadcasts_S1x128_S5000x128 (ix2 p k)) zero32 = _
  rw [Cert.AttnReads.matmul_any_apply _ rfl rfl rfl rfl rfl rfl none _ _ p k, rowBias_apply x3 _ _ p k]
  rfl

/-- The embedding on a tile, from a hidden layer that is the row-wise one. -/
theorem emb_tile (x1 : Vec Ideal S5000x2 .f32) (x2 : Vec Ideal S2x128 .f32) (x3 : Vec Ideal S128 .f32)
    (x4 : Vec Ideal S128x16 .f32) (x5 : Vec Ideal S16 .f32) (H : FVec Ideal S5000x128 .f32)
    (hH : ∀ (p : Fin 5000) (k : Fin 128), H (ix2 p k) = hid x1 x2 x3 p k) (p : Fin 5000) (j : Fin 16) :
    addf (F := Ideal) (matmul dot_S5000x128_S128x16_S5000x16_1_0_0_1_n_n none (truncf .bf16 H bitsLt_bf16_f32) (truncf .bf16 x4 bitsLt_bf16_f32)
          (constant S5000x16 .f32 0x00000000#32))
        (broadcastTo S5000x16 (shapeCast S1x16 x5 shapeCasts_S16_S1x16) broadcasts_S1x16_S5000x16) (ix2 p j)
      = emb x1 x2 x3 x4 x5 p j := by
  refine (dense_bias_apply dot_S5000x128_S128x16_S5000x16_1_0_0_1_n_n rfl rfl rfl rfl rfl rfl
    (truncf .bf16 H bitsLt_bf16_f32) (truncf .bf16 x4 bitsLt_bf16_f32) x5 shapeCasts_S16_S1x16 broadcasts_S1x16_S5000x16 p j).trans ?_
  unfold emb
  exact congrArg (· + x5 (ix1 j)) (Finset.sum_congr rfl fun k _ => congrArg (· * x4 (ix2 k j)) (hH p k))

/-- THE ENCODER'S TILE: the stored product at `(p, q)` is the first projection of the tile's row `p`. -/
theorem pay0_apply (x0 : Vec Ideal S5000x3 .f32) (x1 : Vec Ideal S5000x2 .f32) (x2 : Vec Ideal S2x128 .f32) (x3 : Vec Ideal S128 .f32)
    (x4 : Vec Ideal S128x16 .f32) (x5 : Vec Ideal S16 .f32) (x6 : Vec Ideal S19x32 .f32) (p : Fin 5000) (q : Fin 32) :
    k0_pay1 (F := Ideal) x0 x1 x2 x3 x4 x5 x6 (ix2 p q) = encAt x0 x1 x2 x3 x4 x5 x6 p q := by
  unfold k0_pay1 encAt
  refine (Cert.AttnReads.matmul_any_apply dot_S5000x19_S19x32_S5000x32_1_0_0_1_n_n rfl rfl rfl rfl rfl rfl none _ _ p q).trans ?_
  refine Finset.sum_congr rfl fun k _ => ?_
  refine congrArg (· * x6 (ix2 k q)) ?_
  refine (concat_cols_apply (n := 5000) (a := 3) (b := 16) x0 _ concatenates_S5000x3_S5000x16_S5000x19_d1 p k).trans ?_
  unfold feat
  by_cases hk : k.val < 3
  · rw [dif_pos hk, dif_pos hk]
  · rw [dif_neg hk, dif_neg hk]
    exact emb_tile x1 x2 x3 x4 x5 _ (hid_tile x1 x2 x3) p _

/-- A LAYER STEP'S TILE: the stored product at `(p, q)` is the step of the tile's row `p`. -/
theorem pay1_apply (x0 : Vec Ideal S5000x32 .f32) (x1 : Vec Ideal S32 .f32) (x2 : Vec Ideal S32x32 .f32) (p : Fin 5000) (q : Fin 32) :
    k1_pay1 (F := Ideal) x0 x1 x2 (ix2 p q) = stepAt x0 x1 x2 p q := by
  unfold k1_pay1 stepAt
  refine (Cert.AttnReads.matmul_any_apply dot_S5000x32_S32x32_S5000x32_1_0_0_1_n_n rfl rfl rfl rfl rfl rfl none _ _ p q).trans ?_
  refine Finset.sum_congr rfl fun k _ => ?_
  exact congrArg (· * x2 (ix2 k q))
    (bias_relu_apply x0 x1 shapeCasts_S5000x32_S5000x32 shapeCasts_S32_S1x32 broadcasts_S1x32_S5000x32 p k)

/-- THE HEAD'S TILE: the stored sum at `(p, q)` is the step onto one column plus the output bias. -/
theorem pay2_apply (x0 : Vec Ideal S5000x32 .f32) (x1 : Vec Ideal S32 .f32) (x2 : Vec Ideal S32x1 .f32) (x3 : Vec Ideal S1 .f32)
    (p : Fin 5000) (q : Fin 1) :
    k2_pay1 (F := Ideal) x0 x1 x2 x3 (ix2 p q) = stepAt x0 x1 x2 p q + x3 (ix1 q) := by
  unfold k2_pay1 stepAt
  refine (dense_bias_apply dot_S5000x32_S32x1_S5000x1_1_0_0_1_n_n rfl rfl rfl rfl rfl rfl _ _ x3
    shapeCasts_S1_S1x1 broadcasts_S1x1_S5000x1 p q).trans ?_
  refine congrArg (· + x3 (ix1 q)) (Finset.sum_congr rfl fun k _ => ?_)
  exact congrArg (· * x2 (ix2 k q))
    (bias_relu_apply x0 x1 shapeCasts_S5000x32_S5000x32 shapeCasts_S32_S1x32 broadcasts_S1x32_S5000x32 p k)

end Cert.Gcn.KernelSide

end
-- ==== Proof.EncoderTiles.lean ====
/-
  FROM TILES TO ARRAYS: THE ENCODER.

  The encoder's grid has 20 points; point `t` reads rows `5000 t … 5000 t + 4999` of the node arrays and the weight
  arrays whole, and writes back rows `5000 t … 5000 t + 4999` of its result. What it writes back is that block of the
  row-wise first projection of the WHOLE arrays (a stage at a row reads that row only), and the 20 blocks cover the
  100000 rows: the result array ends holding the first projection of the arrays the region was entered with.
-/
import proofs.«106256_j53824530153898_1_alg».proof.Proof.Gen.KernelIdeal.Frame
import proofs.«106256_j53824530153898_1_alg».proof.Proof.KernelPayloads

-- membership in a rectangle of these extents recurses once per coordinate of the long axis
set_option maxRecDepth 16384

noncomputable section

namespace Cert.Gcn.KernelSide

open Idealize.ShloMosaic Idealize.ShloMosaic.TcCoe Idealize.ShloMosaic.ValueIdx Idealize.SL.Sem Cert.KernelIdeal Cert.KernelIdeal.Gen Cert.Gcn
open Idealize.ShloMosaic.Pipeline (Dat)

variable (V : (c : Dev nD) → (b : Ref sig .tc) → Buf (Elt Ideal) ((c : Thread nD τ).loc b))

/-- The printed index maps over the grid: the node windows move with the point, the weight windows stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = t.val ∧ win0_7.index t (1 : Fin 2) = 0
    ∧ t.val < 20 :=
  (by decide +kernel : ∀ t : Fin grid0.N, _)

/-! ## What a window's block holds: the array's entry at block index × block size + the coordinate inside -/

theorem blk0_x (c : Dev nD) (t : Fin cfg0.N) (ht : t.val < 20) (p : Fin 5000) (k : Fin 3) :
    (iblk0 V c 0 t : Vec Ideal S5000x3 .f32) (ix2 p k) = V c main_arg0 (ix2 (tileRow t.val p.val ht p.isLt) k) := by
  obtain ⟨e0, e1, -⟩ := idx_facts0 t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 3 + 1 * k.val = k.val; omega

theorem blk0_c (c : Dev nD) (t : Fin cfg0.N) (ht : t.val < 20) (p : Fin 5000) (k : Fin 2) :
    (iblk0 V c 1 t : Vec Ideal S5000x2 .f32) (ix2 p k) = V c main_arg1 (ix2 (tileRow t.val p.val ht p.isLt) k) := by
  obtain ⟨-, -, e0, e1, -⟩ := idx_facts0 t
  show V c main_arg1 (((cfg0.win 1).blk t).view.emb (ix2 p k)) = _
  refine congrArg (V c main_arg1) (funext fun a => Fin.ext ?_)
  match a with
  | ⟨0, _⟩ => show win0_1.index t (0 : Fin 2) * 5000 + 1 * p.val = t.val * 5000 + p.val; omega
  | ⟨1, _⟩ => show win0_1.index t (1 : Fin 2) * 2 + 1 * k.val = k.val; omega

theorem blk0_We1 (c : Dev nD) (t : Fin cfg0.N) (l : Fin 2) (k : Fin 128) :
    (iblk0 V c 2 t : Vec Ideal S2x128 .f32) (ix2 l k) = V c main_arg4 (ix2 l k) := by
  obtain ⟨-, -, -, -, e0, e1, -⟩ := idx_facts0 t
  show V c main_arg4 (((cfg0.win 2).blk t).view.emb (ix2 l k)) = _
  refine congrArg (V c main_arg4) (funext fun a => Fin.ext ?_)
  match a with
  | ⟨0, _⟩ => show win0_2.index t (0 : Fin 2) * 2 + 1 * l.val = l.val; omega
  | ⟨1, _⟩ => show win0_2.index t (1 : Fin 2) * 128 + 1 * k.val = k.val; omega

theorem blk0_be1 (c : Dev nD) (t : Fin cfg0.N) (k : Fin 128) :
    (iblk0 V c 3 t : Vec Ideal S128 .f32) (ix1 k) = V c main_arg5 (ix1 k) := by
  obtain ⟨-, -, -, -, -, -, e0, -⟩ := idx_facts0 t
  show V c main_arg5 (((cfg0.win 3).blk t).view.emb (ix1 k)) = _
  refine congrArg (V c main_arg5) (funext fun a => Fin.ext ?_)
  match a with
  | ⟨0, _⟩ => show win0_3.index t (0 : Fin 1) * 128 + 1 * k.val = k.val; omega

theorem blk0_We2 (c : Dev nD) (t : Fin cfg0.N) (k : Fin 128) (j : Fin 16) :
    (iblk0 V c 4 t : Vec Ideal S128x16 .f32) (ix2 k j) = V c main_arg6 (ix2 k j) := by
  obtain ⟨-, -, -, -, -, -, -, e0, e1, -⟩ := idx_facts0 t
  show V c main_arg6 (((cfg0.win 4).blk t).view.emb (ix2 k j)) = _
  refine congrArg (V c main_arg6) (funext fun a => Fin.ext ?_)
  match a with
  | ⟨0, _⟩ => show win0_4.index t (0 : Fin 2) * 128 + 1 * k.val = k.val; omega
  | ⟨1, _⟩ => show win0_4.index t (1 : Fin 2) * 16 + 1 * j.val = j.val; omega

theorem blk0_be2 (c : Dev nD) (t : Fin cfg0.N) (j : Fin 16) :
    (iblk0 V c 5 t : Vec Ideal S16 .f32) (ix1 j) = V c main_arg7 (ix1 j) := by
  obtain ⟨-, -, -, -, -, -, -, -, -, e0, -⟩ := idx_facts0 t
  show V c main_arg7 (((cfg0.win 5).blk t).view.emb (ix1 j)) = _
  refine congrArg (V c main_arg7) (funext fun a => Fin.ext ?_)
  match a with
  | ⟨0, _⟩ => show win0_5.index t (0 : Fin 1) * 16 + 1 * j.val = j.val; omega

theorem blk0_W1 (c : Dev nD) (t : Fin cfg0.N) (k : Fin 19) (q : Fin 32) :
    (iblk0 V c 6 t : Vec Ideal S19x32 .f32) (ix2 k q) = V c main_arg8 (ix2 k q) := by
  obtain ⟨-, -, -, -, -, -, -, -, -, -, e0, e1, -⟩ := idx_facts0 t
  show V c main_arg8 (((cfg0.win 6).blk t).view.emb (ix2 k q)) = _
  refine congrArg (V c main_arg8) (funext fun a => Fin.ext ?_)
  match a with
  | ⟨0, _⟩ => show win0_6.index t (0 : Fin 2) * 19 + 1 * k.val = k.val; omega
  | ⟨1, _⟩ => show win0_6.index t (1 : Fin 2) * 32 + 1 * q.val = q.val; omega

/-- WHAT POINT `t` WRITES BACK: block `t` of the first projection of the arrays the region was entered with. -/
theorem flushed0_eq (c : Dev nD) (t : Fin cfg0.N) :
    (dat0 (F := Ideal) V c).flushed 7 t = ((cfg0.win 7).blk t).view.read (Elt Ideal)
      (enc (V c main_arg0) (V c main_arg1) (V c main_arg4) (V c main_arg5) (V c main_arg6) (V c main_arg7) (V c main_arg8)) := by
  show (cfg0.win 7).cut (grid0.coords t) ((dat0 V c).after 7 t) = _
  rw [after0_7]
  unfold out0_7
  rw [View.canon_unit_zero zero2]
  simp only [View.ld_unit_zero (S := S5000x3) zero2, View.ld_unit_zero (S := S5000x2) zero2, View.ld_unit_zero (S := S2x128) zero2,
    View.ld_unit_zero (S := S128) zero1, View.ld_unit_zero (S := S128x16) zero2, View.ld_unit_zero (S := S16) zero1,
    View.ld_unit_zero (S := S19x32) zero2]
  obtain ⟨-, -, -, -, -, -, -, -, -, -, -, -, e0, e1, ht⟩ := idx_facts0 t
  funext j
  obtain ⟨p, q, rfl⟩ : ∃ (p : Fin 5000) (q : Fin 32), j = ix2 p q := ⟨j 0, j 1, eq_ix2 j⟩
  refine (pay0_apply (iblk0 V c 0 t) (iblk0 V c 1 t) (iblk0 V c 2 t) (iblk0 V c 3 t) (iblk0 V c 4 t) (iblk0 V c 5 t) (iblk0 V c 6 t) p q).trans ?_
  have he : ((cfg0.win 7).blk t).view.emb (ix2 p q) = ix2 (tileRow t.val p.val ht p.isLt) q := by
    funext a; apply Fin.ext
    match a with
    | ⟨0, _⟩ => show win0_7.index t (0 : Fin 2) * 5000 + 1 * p.val = t.val * 5000 + p.val; omega
    | ⟨1, _⟩ => show win0_7.index t (1 : Fin 2) * 32 + 1 * q.val = q.val; omega
  show _ = enc (V c main_arg0) (V c main_arg1) (V c main_arg4) (V c main_arg5) (V c main_arg6) (V c main_arg7) (V c main_arg8)
    (((cfg0.win 7).blk t).view.emb (ix2 p q))
  rw [he, enc_apply]
  exact encAt_congr _ _ _ _ _ _ _ _ _ _ _ _ _ _ p (tileRow t.val p.val ht p.isLt) q
    (fun k => blk0_x V c t ht p k) (fun l => blk0_c V c t ht p l) (fun l k => blk0_We1 V c t l k) (fun k => blk0_be1 V c t k)
    (fun k j => blk0_We2 V c t k j) (fun j => blk0_be2 V c t j) (fun k q => blk0_W1 V c t k q)

/-! ## The 20 blocks cover the result -/

/-- An index of the result is in point `t`'s block iff each coordinate is in the block's range on its axis. -/
theorem mem_blk0 (t : Fin cfg0.N) (i : S100000x32.Idx) :
    i ∈ ((cfg0.win 7).blk t).view.set ↔ ∀ a : Fin 2, win0_7.index t a * S5000x32.size a ≤ (i a).val
      ∧ (i a).val < win0_7.index t a * S5000x32.size a + S5000x32.size a := by
  show i ∈ ((View.whole main_v32).slice (win0_7.rect t)).set ↔ _
  rw [View.set_slice_whole, Rect.mem_set_unit]
  exact Iff.rfl

/-- Row `r` of the result is written by point `r / 5000`. -/
theorem cover0 (i : S100000x32.Idx) :
    ∃ t : Fin cfg0.N, (cfg0.win 7).flush t = true ∧ i ∈ ((cfg0.win 7).blk t).view.set := by
  have hi0 : (i 0).val < 100000 := (i 0).isLt
  have hi1 : (i 1).val < 32 := (i 1).isLt
  have hN : cfg0.N = 20 := N_0
  refine ⟨⟨(i 0).val / 5000, by omega⟩, flush0_7 _, ?_⟩
  obtain ⟨-, -, -, -, -, -, -, -, -, -, -, -, e0, e1, -⟩ := idx_facts0 ⟨(i 0).val / 5000, by omega⟩
  rw [mem_blk0]
  intro a
  match a with
  | ⟨0, _⟩ =>
    show win0_7.index ⟨(i 0).val / 5000, _⟩ (0 : Fin 2) * 5000 ≤ (i 0).val
      ∧ (i 0).val < win0_7.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, _⟩ (1 : Fin 2) * 32 ≤ (i 1).val
      ∧ (i 1).val < win0_7.index ⟨(i 0).val / 5000, _⟩ (1 : Fin 2) * 32 + 32
    rw [e1]; omega

/-- THE ENCODER'S RESULT ARRAY after the region: the first projection of the arrays the region was entered with. -/
theorem final0 (c : Dev nD) :
    (dat0 (F := Ideal) V c).arrAt 7 cfg0.N
      = enc (V c main_arg0) (V c main_arg1) (V c main_arg4) (V c main_arg5) (V c main_arg6) (V c main_arg7) (V c main_arg8) :=
  (dat0 (F := Ideal) V c).arrAt_eq_of_cover 7 _ (fun t _ => flushed0_eq V c t) cover0

end Cert.Gcn.KernelSide

end
-- ==== Proof.StepTiles.lean ====
/-
  FROM TILES TO ARRAYS: A LAYER STEP.

  The second kernel's grid has 20 points; point `t` reads rows `5000 t … 5000 t + 4999` of the aggregate and the
  bias and the projection whole, and writes back the same rows of its result: that block of the row-wise step of
  the WHOLE aggregate. The 20 blocks cover the 100000 rows, so the result array ends holding the step of the arrays
  the region was entered with.
-/
import proofs.«106256_j53824530153898_1_alg».proof.Proof.Gen.KernelIdeal.Frame
import proofs.«106256_j53824530153898_1_alg».proof.Proof.KernelPayloads

-- membership in a rectangle of these extents recurses once per coordinate of the long axis
set_option maxRecDepth 16384

noncomputable section

namespace Cert.Gcn.KernelSide

open Idealize.ShloMosaic Idealize.ShloMosaic.TcCoe Idealize.ShloMosaic.ValueIdx Idealize.SL.Sem Cert.KernelIdeal Cert.KernelIdeal.Gen Cert.Gcn
open Idealize.ShloMosaic.Pipeline (Dat)

variable (V : (c : Dev nD) → (b : Ref sig .tc) → Buf (Elt Ideal) ((c : Thread nD τ).loc b))

/-- The printed index maps over the grid: the aggregate's window and the result's move with the point, the rest stay. -/
theorem idx_facts1 : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0
    ∧ t.val < 20 :=
  (by decide +kernel : ∀ t : Fin grid1.N, _)

/-! ## What a window's block holds -/

theorem blk1_agg (c : Dev nD) (t : Fin cfg1.N) (ht : t.val < 20) (p : Fin 5000) (k : Fin 32) :
    (iblk1 V c 0 t : Vec Ideal S5000x32 .f32) (ix2 p k) = V c main_v45 (ix2 (tileRow t.val p.val ht p.isLt) k) := by
  obtain ⟨e0, e1, -⟩ := idx_facts1 t
  show V c main_v45 (((cfg1.win 0).blk t).view.emb (ix2 p k)) = _
  refine congrArg (V c main_v45) (funext fun a => Fin.ext ?_)
  match a with
  | ⟨0, _⟩ => show win1_0.index t (0 : Fin 2) * 5000 + 1 * p.val = t.val * 5000 + p.val; omega
  | ⟨1, _⟩ => show win1_0.index t (1 : Fin 2) * 32 + 1 * k.val = k.val; omega

theorem blk1_b (c : Dev nD) (t : Fin cfg1.N) (k : Fin 32) :
    (iblk1 V c 1 t : Vec Ideal S32 .f32) (ix1 k) = V c main_arg9 (ix1 k) := by
  obtain ⟨-, -, e0, -⟩ := idx_facts1 t
  show V c main_arg9 (((cfg1.win 1).blk t).view.emb (ix1 k)) = _
  refine congrArg (V c main_arg9) (funext fun a => Fin.ext ?_)
  match a with
  | ⟨0, _⟩ => show win1_1.index t (0 : Fin 1) * 32 + 1 * k.val = k.val; omega

theorem blk1_W (c : Dev nD) (t : Fin cfg1.N) (k : Fin 32) (q : Fin 32) :
    (iblk1 V c 2 t : Vec Ideal S32x32 .f32) (ix2 k q) = V c main_arg10 (ix2 k q) := by
  obtain ⟨-, -, -, e0, e1, -⟩ := idx_facts1 t
  show V c main_arg10 (((cfg1.win 2).blk t).view.emb (ix2 k q)) = _
  refine congrArg (V c main_arg10) (funext fun a => Fin.ext ?_)
  match a with
  | ⟨0, _⟩ => show win1_2.index t (0 : Fin 2) * 32 + 1 * k.val = k.val; omega
  | ⟨1, _⟩ => show win1_2.index t (1 : Fin 2) * 32 + 1 * q.val = q.val; omega

/-- WHAT POINT `t` WRITES BACK: block `t` of the step of the arrays the region was entered with. -/
theorem flushed1_eq (c : Dev nD) (t : Fin cfg1.N) :
    (dat1 (F := Ideal) V c).flushed 3 t = ((cfg1.win 3).blk t).view.read (Elt Ideal)
      (step (V c main_v45) (V c main_arg9) (V c main_arg10)) := by
  show (cfg1.win 3).cut (grid1.coords t) ((dat1 V c).after 3 t) = _
  rw [after1_3]
  unfold out1_3
  rw [View.canon_unit_zero zero2]
  simp only [View.ld_unit_zero (S := S5000x32) zero2, View.ld_unit_zero (S := S32) zero1, View.ld_unit_zero (S := S32x32) zero2]
  obtain ⟨-, -, -, -, -, e0, e1, ht⟩ := idx_facts1 t
  funext j
  obtain ⟨p, q, rfl⟩ : ∃ (p : Fin 5000) (q : Fin 32), j = ix2 p q := ⟨j 0, j 1, eq_ix2 j⟩
  refine (pay1_apply (iblk1 V c 0 t) (iblk1 V c 1 t) (iblk1 V c 2 t) p q).trans ?_
  have he : ((cfg1.win 3).blk t).view.emb (ix2 p q) = ix2 (tileRow t.val p.val ht p.isLt) q := by
    funext a; apply Fin.ext
    match a with
    | ⟨0, _⟩ => show win1_3.index t (0 : Fin 2) * 5000 + 1 * p.val = t.val * 5000 + p.val; omega
    | ⟨1, _⟩ => show win1_3.index t (1 : Fin 2) * 32 + 1 * q.val = q.val; omega
  show _ = step (V c main_v45) (V c main_arg9) (V c main_arg10) (((cfg1.win 3).blk t).view.emb (ix2 p q))
  rw [he, step_apply]
  exact stepAt_congr _ _ _ _ _ _ p (tileRow t.val p.val ht p.isLt) q
    (fun k => blk1_agg V c t ht p k) (fun k => blk1_b V c t k) (fun k q => blk1_W V c t k q)

/-! ## The 20 blocks cover the result -/

theorem mem_blk1 (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v46).slice (win1_3.rect t)).set ↔ _
  rw [View.set_slice_whole, Rect.mem_set_unit]
  exact Iff.rfl

/-- Row `r` of the result is written by point `r / 5000`. -/
theorem cover1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  refine ⟨⟨(i 0).val / 5000, by omega⟩, flush1_3 _, ?_⟩
  obtain ⟨-, -, -, -, -, e0, e1, -⟩ := idx_facts1 ⟨(i 0).val / 5000, by omega⟩
  rw [mem_blk1]
  intro a
  match a with
  | ⟨0, _⟩ =>
    show win1_3.index ⟨(i 0).val / 5000, _⟩ (0 : Fin 2) * 5000 ≤ (i 0).val
      ∧ (i 0).val < win1_3.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, _⟩ (1 : Fin 2) * 32 ≤ (i 1).val
      ∧ (i 1).val < win1_3.index ⟨(i 0).val / 5000, _⟩ (1 : Fin 2) * 32 + 32
    rw [e1]; omega

/-- THE STEP'S RESULT ARRAY after the region: the step of the arrays the region was entered with. -/
theorem final1 (c : Dev nD) :
    (dat1 (F := Ideal) V c).arrAt 3 cfg1.N = step (V c main_v45) (V c main_arg9) (V c main_arg10) :=
  (dat1 (F := Ideal) V c).arrAt_eq_of_cover 3 _ (fun t _ => flushed1_eq V c t) cover1

end Cert.Gcn.KernelSide

end
-- ==== Proof.HeadTiles.lean ====
/-
  FROM TILES TO ARRAYS: THE HEAD.

  The third kernel's grid has 20 points; point `t` reads rows `5000 t … 5000 t + 4999` of the second aggregate and
  the bias, the one-column projection and the output bias whole, and writes back the same rows of the one-column
  result: that block of the row-wise head of the WHOLE aggregate. The 20 blocks cover the 100000 rows, so the result
  array ends holding the head of the arrays the region was entered with.
-/
import proofs.«106256_j53824530153898_1_alg».proof.Proof.Gen.KernelIdeal.Frame
import proofs.«106256_j53824530153898_1_alg».proof.Proof.KernelPayloads

-- membership in a rectangle of these extents recurses once per coordinate of the long axis
set_option maxRecDepth 16384

noncomputable section

namespace Cert.Gcn.KernelSide

open Idealize.ShloMosaic Idealize.ShloMosaic.TcCoe Idealize.ShloMosaic.ValueIdx Idealize.SL.Sem Cert.KernelIdeal Cert.KernelIdeal.Gen Cert.Gcn
open Idealize.ShloMosaic.Pipeline (Dat)

variable (V : (c : Dev nD) → (b : Ref sig .tc) → Buf (Elt Ideal) ((c : Thread nD τ).loc b))

/-- The printed index maps over the grid: the aggregate's window and the result's move with the point, the rest stay. -/
theorem idx_facts2 : ∀ t : Fin cfg2.N,
    win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ t.val < 20 :=
  (by decide +kernel : ∀ t : Fin grid2.N, _)

/-! ## What a window's block holds -/

theorem blk2_agg (c : Dev nD) (t : Fin cfg2.N) (ht : t.val < 20) (p : Fin 5000) (k : Fin 32) :
    (iblk2 V c 0 t : Vec Ideal S5000x32 .f32) (ix2 p k) = V c main_v59 (ix2 (tileRow t.val p.val ht p.isLt) k) := by
  obtain ⟨e0, e1, -⟩ := idx_facts2 t
  show V c main_v59 (((cfg2.win 0).blk t).view.emb (ix2 p k)) = _
  refine congrArg (V c main_v59) (funext fun a => Fin.ext ?_)
  match a with
  | ⟨0, _⟩ => show win2_0.index t (0 : Fin 2) * 5000 + 1 * p.val = t.val * 5000 + p.val; omega
  | ⟨1, _⟩ => show win2_0.index t (1 : Fin 2) * 32 + 1 * k.val = k.val; omega

theorem blk2_b (c : Dev nD) (t : Fin cfg2.N) (k : Fin 32) :
    (iblk2 V c 1 t : Vec Ideal S32 .f32) (ix1 k) = V c main_arg11 (ix1 k) := by
  obtain ⟨-, -, e0, -⟩ := idx_facts2 t
  show V c main_arg11 (((cfg2.win 1).blk t).view.emb (ix1 k)) = _
  refine congrArg (V c main_arg11) (funext fun a => Fin.ext ?_)
  match a with
  | ⟨0, _⟩ => show win2_1.index t (0 : Fin 1) * 32 + 1 * k.val = k.val; omega

theorem blk2_W (c : Dev nD) (t : Fin cfg2.N) (k : Fin 32) (q : Fin 1) :
    (iblk2 V c 2 t : Vec Ideal S32x1 .f32) (ix2 k q) = V c main_arg12 (ix2 k q) := by
  obtain ⟨-, -, -, e0, e1, -⟩ := idx_facts2 t
  show V c main_arg12 (((cfg2.win 2).blk t).view.emb (ix2 k q)) = _
  refine congrArg (V c main_arg12) (funext fun a => Fin.ext ?_)
  match a with
  | ⟨0, _⟩ => show win2_2.index t (0 : Fin 2) * 32 + 1 * k.val = k.val; omega
  | ⟨1, _⟩ => show win2_2.index t (1 : Fin 2) * 1 + 1 * q.val = q.val; omega

theorem blk2_bfc (c : Dev nD) (t : Fin cfg2.N) (q : Fin 1) :
    (iblk2 V c 3 t : Vec Ideal S1 .f32) (ix1 q) = V c main_arg13 (ix1 q) := by
  obtain ⟨-, -, -, -, -, e0, -⟩ := idx_facts2 t
  show V c main_arg13 (((cfg2.win 3).blk t).view.emb (ix1 q)) = _
  refine congrArg (V c main_arg13) (funext fun a => Fin.ext ?_)
  match a with
  | ⟨0, _⟩ => show win2_3.index t (0 : Fin 1) * 1 + 1 * q.val = q.val; omega

/-- WHAT POINT `t` WRITES BACK: block `t` of the head of the arrays the region was entered with. -/
theorem flushed2_eq (c : Dev nD) (t : Fin cfg2.N) :
    (dat2 (F := Ideal) V c).flushed 4 t = ((cfg2.win 4).blk t).view.read (Elt Ideal)
      (head (V c main_v59) (V c main_arg11) (V c main_arg12) (V c main_arg13)) := by
  show (cfg2.win 4).cut (grid2.coords t) ((dat2 V c).after 4 t) = _
  rw [after2_4]
  unfold out2_4
  rw [View.canon_unit_zero zero2]
  simp only [View.ld_unit_zero (S := S5000x32) zero2, View.ld_unit_zero (S := S32) zero1, View.ld_unit_zero (S := S32x1) zero2,
    View.ld_unit_zero (S := S1) zero1]
  obtain ⟨-, -, -, -, -, -, e0, e1, ht⟩ := idx_facts2 t
  funext j
  obtain ⟨p, q, rfl⟩ : ∃ (p : Fin 5000) (q : Fin 1), j = ix2 p q := ⟨j 0, j 1, eq_ix2 j⟩
  refine (pay2_apply (iblk2 V c 0 t) (iblk2 V c 1 t) (iblk2 V c 2 t) (iblk2 V c 3 t) p q).trans ?_
  have he : ((cfg2.win 4).blk t).view.emb (ix2 p q) = ix2 (tileRow t.val p.val ht p.isLt) q := by
    funext a; apply Fin.ext
    match a with
    | ⟨0, _⟩ => show win2_4.index t (0 : Fin 2) * 5000 + 1 * p.val = t.val * 5000 + p.val; omega
    | ⟨1, _⟩ => show win2_4.index t (1 : Fin 2) * 1 + 1 * q.val = q.val; omega
  show _ = head (V c main_v59) (V c main_arg11) (V c main_arg12) (V c main_arg13) (((cfg2.win 4).blk t).view.emb (ix2 p q))
  rw [he, head_apply, blk2_bfc V c t q]
  exact congrArg (· + V c main_arg13 (ix1 q)) (stepAt_congr _ _ _ _ _ _ p (tileRow t.val p.val ht p.isLt) q
    (fun k => blk2_agg V c t ht p k) (fun k => blk2_b V c t k) (fun k q => blk2_W V c t k q))

/-! ## The 20 blocks cover the result -/

theorem mem_blk2 (t : Fin cfg2.N) (i : S100000x1.Idx) :
    i ∈ ((cfg2.win 4).blk t).view.set ↔ ∀ a : Fin 2, win2_4.index t a * S5000x1.size a ≤ (i a).val
      ∧ (i a).val < win2_4.index t a * S5000x1.size a + S5000x1.size a := by
  show i ∈ ((View.whole main_v60).slice (win2_4.rect t)).set ↔ _
  rw [View.set_slice_whole, Rect.mem_set_unit]
  exact Iff.rfl

/-- Row `r` of the result is written by point `r / 5000`. -/
theorem cover2 (i : S100000x1.Idx) :
    ∃ t : Fin cfg2.N, (cfg2.win 4).flush t = true ∧ i ∈ ((cfg2.win 4).blk t).view.set := by
  have hi0 : (i 0).val < 100000 := (i 0).isLt
  have hi1 : (i 1).val < 1 := (i 1).isLt
  have hN : cfg2.N = 20 := N_2
  refine ⟨⟨(i 0).val / 5000, by omega⟩, flush2_4 _, ?_⟩
  obtain ⟨-, -, -, -, -, -, e0, e1, -⟩ := idx_facts2 ⟨(i 0).val / 5000, by omega⟩
  rw [mem_blk2]
  intro a
  match a with
  | ⟨0, _⟩ =>
    show win2_4.index ⟨(i 0).val / 5000, _⟩ (0 : Fin 2) * 5000 ≤ (i 0).val
      ∧ (i 0).val < win2_4.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, _⟩ (1 : Fin 2) * 1 ≤ (i 1).val
      ∧ (i 1).val < win2_4.index ⟨(i 0).val / 5000, _⟩ (1 : Fin 2) * 1 + 1
    rw [e1]; omega

/-- THE HEAD'S RESULT ARRAY after the region: the head of the arrays the region was entered with. -/
theorem final2 (c : Dev nD) :
    (dat2 (F := Ideal) V c).arrAt 4 cfg2.N = head (V c main_v59) (V c main_arg11) (V c main_arg12) (V c main_arg13) :=
  (dat2 (F := Ideal) V c).arrAt_eq_of_cover 4 _ (fun t _ => flushed2_eq V c t) cover2

end Cert.Gcn.KernelSide

end
-- ==== Proof.ReferenceStages.lean ====
/-
  THE REFERENCE, STAGE BY STAGE.

  The reference applies the same dense stages to whole arrays of 100000 rows, as host operations: a `dot_general`
  contracting the left operand's second axis with the right operand's first is, at the ideal values, the sum over the
  contracted coordinate; a bias broadcast in two steps ([b] to [1, b] to [100000, b]) adds the bias's entry of the
  column; the rectifier is the larger of the entry and zero; the concatenation of the inputs with the embedding is
  read in the inputs below column 3 and in the embedding past it. So each of its dense stages IS the row-wise stage
  of the same name on 100000 rows. Between the dense stages the reference gathers rows along the edges, scales them
  by the degree normalisation and adds them up at the edges' targets; that part is named here as one function of the
  projected features (twice: the reference spells it once per layer), and never opened.
-/
import proofs.«106256_j53824530153898_1_alg».proof.Proof.Gen.ReferenceIdeal.Read
import proofs.«106256_j53824530153898_1_alg».proof.Proof.RowStages

noncomputable section

open scoped BigOperators

namespace Cert.Gcn.ReferenceSide

open Idealize.ShloMosaic Idealize.ShloMosaic.ValueIdx Cert.ReferenceIdeal Cert.ReferenceIdeal.Gen Cert.ReferenceIdeal.Read Cert.Gcn

/-! ## The encoder -/

/-- The reference's hidden layer at node `r`, unit `k`. -/
theorem ref_hid (x1 : (⟨S100000x2, .f32⟩ : BufTy).Contents (Elt Ideal)) (x4 : (⟨S2x128, .f32⟩ : BufTy).Contents (Elt Ideal))
    (x5 : (⟨S128, .f32⟩ : BufTy).Contents (Elt Ideal)) (r : Fin 100000) (k : Fin 128) :
    val_main_v13 (F := Ideal) x1 x4 x5 (ix2 r k) = hid x1 x4 x5 r k := by
  rw [val_main_v13_apply, val_main_v12_apply, val_main_v9_apply, val_main_v11_apply, val_main_v10_apply,
    val_main_call0_v0_apply, val_main_call0_cst_apply]
  have e1 : ∀ l : Fin 2, lidx_main_v9 (ix2 r k) l = ix2 r l := fun l => funext fun a => Fin.ext (by
    match a with
    | ⟨0, _⟩ => rfl
    | ⟨1, _⟩ => rfl)
  have e2 : ∀ l : Fin 2, ridx_main_v9 (ix2 r k) l = ix2 l k := fun l => funext fun a => Fin.ext (by
    match a with
    | ⟨0, _⟩ => rfl
    | ⟨1, _⟩ => rfl)
  have e3 : idx_main_v10 (idx_main_v11 (ix2 r k)) = ix1 k := funext fun a => Fin.ext (by
    match a with
    | ⟨0, _⟩ => rfl)
  simp only [e1, e2, e3]
  rfl

/-- The reference's embedding at node `r`, coordinate `j`. -/
theorem ref_emb (x1 : (⟨S100000x2, .f32⟩ : BufTy).Contents (Elt Ideal)) (x4 : (⟨S2x128, .f32⟩ : BufTy).Contents (Elt Ideal))
    (x5 : (⟨S128, .f32⟩ : BufTy).Contents (Elt Ideal)) (x6 : (⟨S128x16, .f32⟩ : BufTy).Contents (Elt Ideal))
    (x7 : (⟨S16, .f32⟩ : BufTy).Contents (Elt Ideal)) (r : Fin 100000) (j : Fin 16) :
    val_main_v17 (F := Ideal) x1 x4 x5 x6 x7 (ix2 r j) = emb x1 x4 x5 x6 x7 r j := by
  rw [val_main_v17_apply, val_main_v14_apply, val_main_v16_apply, val_main_v15_apply]
  have e1 : ∀ k : Fin 128, lidx_main_v14 (ix2 r j) k = ix2 r k := fun k => funext fun a => Fin.ext (by
    match a with
    | ⟨0, _⟩ => rfl
    | ⟨1, _⟩ => rfl)
  have e2 : ∀ k : Fin 128, ridx_main_v14 (ix2 r j) k = ix2 k j := fun k => funext fun a => Fin.ext (by
    match a with
    | ⟨0, _⟩ => rfl
    | ⟨1, _⟩ => rfl)
  have e3 : idx_main_v15 (idx_main_v16 (ix2 r j)) = ix1 j := funext fun a => Fin.ext (by
    match a with
    | ⟨0, _⟩ => rfl)
  simp only [e1, e2, e3, ref_hid]
  rfl

/-- THE REFERENCE'S FIRST PROJECTION is the row-wise one on 100000 rows. -/
theorem ref_enc (x0 : (⟨S100000x3, .f32⟩ : BufTy).Contents (Elt Ideal)) (x1 : (⟨S100000x2, .f32⟩ : BufTy).Contents (Elt Ideal))
    (x4 : (⟨S2x128, .f32⟩ : BufTy).Contents (Elt Ideal)) (x5 : (⟨S128, .f32⟩ : BufTy).Contents (Elt Ideal))
    (x6 : (⟨S128x16, .f32⟩ : BufTy).Contents (Elt Ideal)) (x7 : (⟨S16, .f32⟩ : BufTy).Contents (Elt Ideal))
    (x8 : (⟨S19x32, .f32⟩ : BufTy).Contents (Elt Ideal)) :
    enc (n := 100000) x0 x1 x4 x5 x6 x7 x8 = val_main_v19 (F := Ideal) x0 x1 x4 x5 x6 x7 x8 := by
  funext i
  obtain ⟨r, q, rfl⟩ : ∃ (r : Fin 100000) (q : Fin 32), i = ix2 r q := ⟨i 0, i 1, eq_ix2 i⟩
  rw [enc_apply, val_main_v19_apply]
  unfold encAt
  refine Finset.sum_congr rfl fun k _ => ?_
  have e1 : lidx_main_v19 (ix2 r q) k = ix2 r k := funext fun a => Fin.ext (by
    match a with
    | ⟨0, _⟩ => rfl
    | ⟨1, _⟩ => rfl)
  have e2 : ridx_main_v19 (ix2 r q) k = ix2 k q := funext fun a => Fin.ext (by
    match a with
    | ⟨0, _⟩ => rfl
    | ⟨1, _⟩ => rfl)
  rw [e1, e2]
  refine congrArg (· * x8 (ix2 k q)) ?_
  unfold val_main_v18 feat
  refine Eq.trans ?_ (concat_cols_apply (n := 100000) (a := 3) (b := 16) x0 (val_main_v17 (F := Ideal) x1 x4 x5 x6 x7)
    concatenates_S100000x3_S100000x16_S100000x19_d1 r k).symm
  by_cases hk : k.val < 3
  · rw [dif_pos hk, dif_pos hk]
  · rw [dif_neg hk, dif_neg hk]
    exact (ref_emb x1 x4 x5 x6 x7 r _).symm

/-! ## A layer step and the head -/

/-- The reference's layer step on an aggregate: bias (broadcast in two steps), rectifier, `dot_general`. -/
def refStep (A : FVec Ideal S100000x32 .f32) (b : FVec Ideal S32 .f32) (W : FVec Ideal S32x32 .f32) : FVec Ideal S100000x32 .f32 :=
  Host.dotGeneral (F := Ideal) dot_S100000x32_S32x32_S100000x32_1_0_0_1_n_n none
    (maximumf (F := Ideal) (addf (F := Ideal) A (val_main_v57 (F := Ideal) b)) (val_main_call2_v0 (F := Ideal))) W

/-- The reference's head on an aggregate: bias, rectifier, `dot_general` onto one column, output bias. -/
def refHead (A : FVec Ideal S100000x32 .f32) (b : FVec Ideal S32 .f32) (W : FVec Ideal S32x1 .f32) (bfc : FVec Ideal S1 .f32) : FVec Ideal S100000x1 .f32 :=
  addf (F := Ideal) (Host.dotGeneral (F := Ideal) dot_S100000x32_S32x1_S100000x1_1_0_0_1_n_n none
    (maximumf (F := Ideal) (addf (F := Ideal) A (val_main_v98 (F := Ideal) b)) (val_main_call4_v0 (F := Ideal))) W) (val_main_v103 (F := Ideal) bfc)

/-- Bias and rectifier of the first layer at `(r, k)`. -/
theorem ref_relu1 (A : FVec Ideal S100000x32 .f32) (b : FVec Ideal S32 .f32) (r : Fin 100000) (k : Fin 32) :
    maximumf (F := Ideal) (addf (F := Ideal) A (val_main_v57 (F := Ideal) b)) (val_main_call2_v0 (F := Ideal)) (ix2 r k)
      = max (A (ix2 r k) + b (ix1 k)) zero32 := by
  show max (A (ix2 r k) + val_main_v57 (F := Ideal) b (ix2 r k)) (val_main_call2_v0 (F := Ideal) (ix2 r k)) = _
  rw [val_main_v57_apply, val_main_v56_apply, val_main_call2_v0_apply, val_main_call2_cst_apply]
  have e : idx_main_v56 (idx_main_v57 (ix2 r k)) = ix1 k := funext fun a => Fin.ext (by
    match a with
    | ⟨0, _⟩ => rfl)
  rw [e]
  rfl

/-- Bias and rectifier of the second layer at `(r, k)`. -/
theorem ref_relu2 (A : FVec Ideal S100000x32 .f32) (b : FVec Ideal S32 .f32) (r : Fin 100000) (k : Fin 32) :
    maximumf (F := Ideal) (addf (F := Ideal) A (val_main_v98 (F := Ideal) b)) (val_main_call4_v0 (F := Ideal)) (ix2 r k)
      = max (A (ix2 r k) + b (ix1 k)) zero32 := by
  show max (A (ix2 r k) + val_main_v98 (F := Ideal) b (ix2 r k)) (val_main_call4_v0 (F := Ideal) (ix2 r k)) = _
  rw [val_main_v98_apply, val_main_v97_apply, val_main_call4_v0_apply, val_main_call4_cst_apply]
  have e : idx_main_v97 (idx_main_v98 (ix2 r k)) = ix1 k := funext fun a => Fin.ext (by
    match a with
    | ⟨0, _⟩ => rfl)
  rw [e]
  rfl

/-- THE REFERENCE'S LAYER STEP is the row-wise one on 100000 rows. -/
theorem ref_step (A : FVec Ideal S100000x32 .f32) (b : FVec Ideal S32 .f32) (W : FVec Ideal S32x32 .f32) :
    step (n := 100000) A b W = refStep A b W := by
  funext i
  obtain ⟨r, q, rfl⟩ : ∃ (r : Fin 100000) (q : Fin 32), i = ix2 r q := ⟨i 0, i 1, eq_ix2 i⟩
  rw [step_apply]
  unfold refStep stepAt
  simp only [Host.dotGeneral]
  refine Eq.symm ((Cert.Lib.PlainMatmul.dotGeneral_plain_apply dot_S100000x32_S32x32_S100000x32_1_0_0_1_n_n rfl rfl rfl rfl rfl rfl
    none _ _ W r q).trans ?_)
  exact Finset.sum_congr rfl fun k _ => congrArg (· * W (ix2 k q)) (ref_relu1 A b r k)

/-- THE REFERENCE'S HEAD is the row-wise one on 100000 rows. -/
theorem ref_head (A : FVec Ideal S100000x32 .f32) (b : FVec Ideal S32 .f32) (W : FVec Ideal S32x1 .f32) (bfc : FVec Ideal S1 .f32) :
    head (n := 100000) A b W bfc = refHead A b W bfc := by
  funext i
  obtain ⟨r, q, rfl⟩ : ∃ (r : Fin 100000) (q : Fin 1), i = ix2 r q := ⟨i 0, i 1, eq_ix2 i⟩
  rw [head_apply]
  unfold refHead stepAt
  show _ = Host.dotGeneral (F := Ideal) dot_S100000x32_S32x1_S100000x1_1_0_0_1_n_n none
      (maximumf (F := Ideal) (addf (F := Ideal) A (val_main_v98 (F := Ideal) b)) (val_main_call4_v0 (F := Ideal))) W (ix2 r q)
    + val_main_v103 (F := Ideal) bfc (ix2 r q)
  rw [val_main_v103_apply, val_main_v102_apply]
  have e : idx_main_v102 (idx_main_v103 (ix2 r q)) = ix1 q := funext fun a => Fin.ext (by
    match a with
    | ⟨0, _⟩ => exact (Subsingleton.elim (0 : Fin 1) q ▸ rfl))
  rw [e]
  refine congrArg (· + bfc (ix1 q)) ?_
  simp only [Host.dotGeneral]
  refine Eq.symm ((Cert.Lib.PlainMatmul.dotGeneral_plain_apply dot_S100000x32_S32x1_S100000x1_1_0_0_1_n_n rfl rfl rfl rfl rfl rfl
    none _ _ W r q).trans ?_)
  exact Finset.sum_congr rfl fun k _ => congrArg (· * W (ix2 k q)) (ref_relu2 A b r k)

/-! ## The aggregation along the edges, as one function of the projected features -/

/-- Rows gathered along the edges, scaled by the edge normalisation, added up at the edges' targets — the first layer's spelling. -/
def aggA (X : FVec Ideal S100000x32 .f32) (x2 : IVec S2x2000000 32) (x3 : FVec Ideal S2000000 .f32) : FVec Ideal S100000x32 .f32 :=
  Host.scatterAdd (F := Ideal) scatter_S100000x32_S2100000x1_S2100000x32_1_0_0_1 (val_main_v53 (F := Ideal)) (val_main_v54 (F := Ideal) x2)
    (mulf (F := Ideal) (Host.gather gather_S100000x32_S2100000x1_S2100000x32_1_0_n_n_0_1_132 X (val_main_v48 (F := Ideal) x2))
      (val_main_v51 (F := Ideal) x2 x3))

/-- The same, in the second layer's spelling. -/
def aggB (X : FVec Ideal S100000x32 .f32) (x2 : IVec S2x2000000 32) (x3 : FVec Ideal S2000000 .f32) : FVec Ideal S100000x32 .f32 :=
  Host.scatterAdd (F := Ideal) scatter_S100000x32_S2100000x1_S2100000x32_1_0_0_1 (val_main_v94 (F := Ideal)) (val_main_v95 (F := Ideal) x2)
    (mulf (F := Ideal) (Host.gather gather_S100000x32_S2100000x1_S2100000x32_1_0_n_n_0_1_132 X (val_main_v89 (F := Ideal) x2))
      (val_main_v92 (F := Ideal) x2 x3))

set_option maxRecDepth 8192 in
/-- THE REFERENCE'S RESULT: head of the aggregate of the step of the aggregate of the first projection. -/
theorem ref_result (x0 : FVec Ideal S100000x3 .f32) (x1 : FVec Ideal S100000x2 .f32) (x2 : IVec S2x2000000 32)
    (x3 : FVec Ideal S2000000 .f32) (x4 : FVec Ideal S2x128 .f32) (x5 : FVec Ideal S128 .f32) (x6 : FVec Ideal S128x16 .f32)
    (x7 : FVec Ideal S16 .f32) (x8 : FVec Ideal S19x32 .f32) (x9 : FVec Ideal S32 .f32) (x10 : FVec Ideal S32x32 .f32)
    (x11 : FVec Ideal S32 .f32) (x12 : FVec Ideal S32x1 .f32) (x13 : FVec Ideal S1 .f32) :
    val_main_v104 (F := Ideal) x0 x1 x2 x3 x4 x5 x6 x7 x8 x9 x10 x11 x12 x13
      = refHead (aggB (refStep (aggA (val_main_v19 (F := Ideal) x0 x1 x4 x5 x6 x7 x8) x2 x3) x9 x10) x2 x3) x11 x12 x13 := by
  unfold val_main_v104 val_main_v101 val_main_v100 val_main_v99 val_main_v96 val_main_v93 val_main_v90
    val_main_v60 val_main_v59 val_main_v58 val_main_v55 val_main_v52 val_main_v49 refHead aggB refStep aggA
  rfl

end Cert.Gcn.ReferenceSide

end
-- ==== Proof.KernelLayers.lean ====
/-
  THE KERNEL PROGRAM'S VALUE.

  From the launch to the return: the first region leaves the first projection of the inputs in its result array;
  the host gathers it along the edges, scales by the edge normalisation and adds up at the targets; the second region
  leaves the layer step of that aggregate; the host aggregates again; the third region leaves the head of the second
  aggregate. Each region's arrays are read at the contents the region is entered with; every buffer a later stretch
  or region reads (the edge list with its self loops, the normalisation, the weights) is followed through the
  stretches and regions that do not write it. The two aggregations are stated as the reference's own stages of the
  same operations, so that the kernel program's value is spelt in the reference's vocabulary around the row-wise
  dense stages.
-/
import proofs.«106256_j53824530153898_1_alg».proof.Proof.KernelHost
import proofs.«106256_j53824530153898_1_alg».proof.Proof.EncoderTiles
import proofs.«106256_j53824530153898_1_alg».proof.Proof.StepTiles
import proofs.«106256_j53824530153898_1_alg».proof.Proof.HeadTiles
import proofs.«106256_j53824530153898_1_alg».proof.Proof.ReferenceStages

set_option maxRecDepth 16384

noncomputable section

namespace Cert.Gcn.KernelSide

open Idealize.ShloMosaic Idealize.ShloMosaic.TcCoe Idealize.SL.Sem Idealize.ShloMosaic.StableHlo
open Cert.KernelIdeal Cert.KernelIdeal.Gen Cert.ReferenceIdeal.Read Cert.Gcn
open Cert.Gcn.ReferenceSide (aggA aggB)

variable (m : (ℓ : Loc nD τ sig) → Buf (Elt Ideal) ℓ) (ρ : Dev nD → PrngReg)

/-! ## The arguments when the first region is entered: no host operation writes an argument -/

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp <;> rfl

theorem W3_arg1 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  simp only [hostOps0, hostOps0_1, hostOps0_2]
  after_results_simp <;> rfl

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results_simp <;> rfl

theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp <;> rfl

theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  simp only [hostOps0, hostOps0_1, hostOps0_2]
  after_results_simp <;> rfl

theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  simp only [hostOps0, hostOps0_1, hostOps0_2]
  after_results_simp <;> rfl

theorem W3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  simp only [hostOps0, hostOps0_1, hostOps0_2]
  after_results_simp <;> rfl

theorem W3_arg9 (c : Dev nD) : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  simp only [hostOps0, hostOps0_1, hostOps0_2]
  after_results_simp <;> rfl

theorem W3_arg10 (c : Dev nD) : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  simp only [hostOps0, hostOps0_1, hostOps0_2]
  after_results_simp <;> rfl

theorem W3_arg11 (c : Dev nD) : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  simp only [hostOps0, hostOps0_1, hostOps0_2]
  after_results_simp <;> rfl

theorem W3_arg12 (c : Dev nD) : W3 m ρ c (Proc.devRef .tc main_arg12) = m ((c : Thread nD τ).loc main_arg12) := by
  show StableHlo.after hostOps0_2 (StableHlo.after hostOps0_1 (StableHlo.after hostOps0 (W0 m ρ c))) (Proc.devRef .tc main_arg12) = _
  simp only [hostOps0, hostOps0_1, hostOps0_2]
  after_results_simp <;> rfl

theorem W3_arg13 (c : Dev nD) : W3 m ρ c (Proc.devRef .tc main_arg13) = m ((c : Thread nD τ).loc main_arg13) := by
  show StableHlo.after hostOps0_2 (StableHlo.after hostOps0_1 (StableHlo.after hostOps0 (W0 m ρ c))) (Proc.devRef .tc main_arg13) = _
  simp only [hostOps0, hostOps0_1, hostOps0_2]
  after_results_simp <;> rfl

/-! ## The first region: the first projection of the inputs -/

theorem W4_v32 (c : Dev nD) : W4 m ρ c (Proc.devRef .tc main_v32)
    = enc (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 7).trans ((final0 (V3 m ρ) c).trans ?_)
  show enc (W3 m ρ c (Proc.devRef .tc main_arg0)) (W3 m ρ c (Proc.devRef .tc main_arg1)) (W3 m ρ c (Proc.devRef .tc main_arg4)) (W3 m ρ c (Proc.devRef .tc main_arg5))
    (W3 m ρ c (Proc.devRef .tc main_arg6)) (W3 m ρ c (Proc.devRef .tc main_arg7)) (W3 m ρ c (Proc.devRef .tc main_arg8)) = _
  rw [W3_arg0 m ρ c, W3_arg1 m ρ c, W3_arg4 m ρ c, W3_arg5 m ρ c, W3_arg6 m ρ c, W3_arg7 m ρ c, W3_arg8 m ρ c]

/-! ## The stretch after it: the first aggregation -/

theorem W5_v45 (c : Dev nD) : W5 m ρ c (Proc.devRef .tc main_v45) = aggA (W4 m ρ c (Proc.devRef .tc main_v32)) (m ((c : Thread nD τ).loc main_arg2)) (m ((c : Thread nD τ).loc main_arg3)) := by
  have h3 : W4 m ρ c (Proc.devRef .tc main_v3) = val_main_v3 (F := Ideal) (m ((c : Thread nD τ).loc main_arg2)) := (W4_of_ne m ρ c main_v3 (by decide)).trans (W3_v3 m ρ c)
  have h6 : W4 m ρ c (Proc.devRef .tc main_v6) = val_main_v6 (F := Ideal) (m ((c : Thread nD τ).loc main_arg2)) := (W4_of_ne m ρ c main_v6 (by decide)).trans (W3_v6 m ρ c)
  have h31 : W4 m ρ c (Proc.devRef .tc main_v31) = val_main_v42 (F := Ideal) (m ((c : Thread nD τ).loc main_arg2)) (m ((c : Thread nD τ).loc main_arg3)) := (W4_of_ne m ρ c main_v31 (by decide)).trans (W3_v31 m ρ c)
  show StableHlo.after hostOps1 (W4 m ρ c) (Proc.devRef .tc main_v45) = _
  generalize W4 m ρ c = V at h3 h6 h31 ⊢
  simp only [hostOps1]
  after_results_simp
  results_loop
  rw [h3, h6, h31]
  unfold aggA
  rfl

theorem W5_arg9 (c : Dev nD) : W5 m ρ c (Proc.devRef .tc main_arg9) = m ((c : Thread nD τ).loc main_arg9) := by
  have h : W4 m ρ c (Proc.devRef .tc main_arg9) = m ((c : Thread nD τ).loc main_arg9) := (W4_of_ne m ρ c main_arg9 (by decide)).trans (W3_arg9 m ρ c)
  show StableHlo.after hostOps1 (W4 m ρ c) (Proc.devRef .tc main_arg9) = _
  generalize W4 m ρ c = V at h ⊢
  simp only [hostOps1]
  after_results_simp
  results_loop
  exact h

theorem W5_arg10 (c : Dev nD) : W5 m ρ c (Proc.devRef .tc main_arg10) = m ((c : Thread nD τ).loc main_arg10) := by
  have h : W4 m ρ c (Proc.devRef .tc main_arg10) = m ((c : Thread nD τ).loc main_arg10) := (W4_of_ne m ρ c main_arg10 (by decide)).trans (W3_arg10 m ρ c)
  show StableHlo.after hostOps1 (W4 m ρ c) (Proc.devRef .tc main_arg10) = _
  generalize W4 m ρ c = V at h ⊢
  simp only [hostOps1]
  after_results_simp
  results_loop
  exact h

theorem W5_v3 (c : Dev nD) : W5 m ρ c (Proc.devRef .tc main_v3) = val_main_v3 (F := Ideal) (m ((c : Thread nD τ).loc main_arg2)) := by
  have h : W4 m ρ c (Proc.devRef .tc main_v3) = val_main_v3 (F := Ideal) (m ((c : Thread nD τ).loc main_arg2)) := (W4_of_ne m ρ c main_v3 (by decide)).trans (W3_v3 m ρ c)
  show StableHlo.after hostOps1 (W4 m ρ c) (Proc.devRef .tc main_v3) = _
  generalize W4 m ρ c = V at h ⊢
  simp only [hostOps1]
  after_results_simp
  results_loop
  exact h

theorem W5_v6 (c : Dev nD) : W5 m ρ c (Proc.devRef .tc main_v6) = val_main_v6 (F := Ideal) (m ((c : Thread nD τ).loc main_arg2)) := by
  have h : W4 m ρ c (Proc.devRef .tc main_v6) = val_main_v6 (F := Ideal) (m ((c : Thread nD τ).loc main_arg2)) := (W4_of_ne m ρ c main_v6 (by decide)).trans (W3_v6 m ρ c)
  show StableHlo.after hostOps1 (W4 m ρ c) (Proc.devRef .tc main_v6) = _
  generalize W4 m ρ c = V at h ⊢
  simp only [hostOps1]
  after_results_simp
  results_loop
  exact h

theorem W5_v31 (c : Dev nD) : W5 m ρ c (Proc.devRef .tc main_v31) = val_main_v42 (F := Ideal) (m ((c : Thread nD τ).loc main_arg2)) (m ((c : Thread nD τ).loc main_arg3)) := by
  have h : W4 m ρ c (Proc.devRef .tc main_v31) = val_main_v42 (F := Ideal) (m ((c : Thread nD τ).loc main_arg2)) (m ((c : Thread nD τ).loc main_arg3)) := (W4_of_ne m ρ c main_v31 (by decide)).trans (W3_v31 m ρ c)
  show StableHlo.after hostOps1 (W4 m ρ c) (Proc.devRef .tc main_v31) = _
  generalize W4 m ρ c = V at h ⊢
  simp only [hostOps1]
  after_results_simp
  results_loop
  exact h

theorem W5_arg11 (c : Dev nD) : W5 m ρ c (Proc.devRef .tc main_arg11) = m ((c : Thread nD τ).loc main_arg11) := by
  have h : W4 m ρ c (Proc.devRef .tc main_arg11) = m ((c : Thread nD τ).loc main_arg11) := (W4_of_ne m ρ c main_arg11 (by decide)).trans (W3_arg11 m ρ c)
  show StableHlo.after hostOps1 (W4 m ρ c) (Proc.devRef .tc main_arg11) = _
  generalize W4 m ρ c = V at h ⊢
  simp only [hostOps1]
  after_results_simp
  results_loop
  exact h

theorem W5_arg12 (c : Dev nD) : W5 m ρ c (Proc.devRef .tc main_arg12) = m ((c : Thread nD τ).loc main_arg12) := by
  have h : W4 m ρ c (Proc.devRef .tc main_arg12) = m ((c : Thread nD τ).loc main_arg12) := (W4_of_ne m ρ c main_arg12 (by decide)).trans (W3_arg12 m ρ c)
  show StableHlo.after hostOps1 (W4 m ρ c) (Proc.devRef .tc main_arg12) = _
  generalize W4 m ρ c = V at h ⊢
  simp only [hostOps1]
  after_results_simp
  results_loop
  exact h

theorem W5_arg13 (c : Dev nD) : W5 m ρ c (Proc.devRef .tc main_arg13) = m ((c : Thread nD τ).loc main_arg13) := by
  have h : W4 m ρ c (Proc.devRef .tc main_arg13) = m ((c : Thread nD τ).loc main_arg13) := (W4_of_ne m ρ c main_arg13 (by decide)).trans (W3_arg13 m ρ c)
  show StableHlo.after hostOps1 (W4 m ρ c) (Proc.devRef .tc main_arg13) = _
  generalize W4 m ρ c = V at h ⊢
  simp only [hostOps1]
  after_results_simp
  results_loop
  exact h

/-! ## The second region: the layer step of the first aggregate -/

theorem W6_v46 (c : Dev nD) : W6 m ρ c (Proc.devRef .tc main_v46)
    = step (W5 m ρ c (Proc.devRef .tc main_v45)) (W5 m ρ c (Proc.devRef .tc main_arg9)) (W5 m ρ c (Proc.devRef .tc main_arg10)) :=
  (W6_arr m ρ c 3).trans (final1 (V5 m ρ) c)

/-! ## The stretch after it: the second aggregation -/

theorem W7_v59 (c : Dev nD) : W7 m ρ c (Proc.devRef .tc main_v59) = aggB (W6 m ρ c (Proc.devRef .tc main_v46)) (m ((c : Thread nD τ).loc main_arg2)) (m ((c : Thread nD τ).loc main_arg3)) := by
  have h3 : W6 m ρ c (Proc.devRef .tc main_v3) = val_main_v3 (F := Ideal) (m ((c : Thread nD τ).loc main_arg2)) := (W6_of_ne m ρ c main_v3 (by decide)).trans (W5_v3 m ρ c)
  have h6 : W6 m ρ c (Proc.devRef .tc main_v6) = val_main_v6 (F := Ideal) (m ((c : Thread nD τ).loc main_arg2)) := (W6_of_ne m ρ c main_v6 (by decide)).trans (W5_v6 m ρ c)
  have h31 : W6 m ρ c (Proc.devRef .tc main_v31) = val_main_v42 (F := Ideal) (m ((c : Thread nD τ).loc main_arg2)) (m ((c : Thread nD τ).loc main_arg3)) := (W6_of_ne m ρ c main_v31 (by decide)).trans (W5_v31 m ρ c)
  show StableHlo.after hostOps2 (W6 m ρ c) (Proc.devRef .tc main_v59) = _
  generalize W6 m ρ c = V at h3 h6 h31 ⊢
  simp only [hostOps2]
  after_results_simp
  results_loop
  rw [h3, h6, h31]
  unfold aggB
  rfl

theorem W7_arg11 (c : Dev nD) : W7 m ρ c (Proc.devRef .tc main_arg11) = m ((c : Thread nD τ).loc main_arg11) := by
  have h : W6 m ρ c (Proc.devRef .tc main_arg11) = m ((c : Thread nD τ).loc main_arg11) := (W6_of_ne m ρ c main_arg11 (by decide)).trans (W5_arg11 m ρ c)
  show StableHlo.after hostOps2 (W6 m ρ c) (Proc.devRef .tc main_arg11) = _
  generalize W6 m ρ c = V at h ⊢
  simp only [hostOps2]
  after_results_simp
  results_loop
  exact h

theorem W7_arg12 (c : Dev nD) : W7 m ρ c (Proc.devRef .tc main_arg12) = m ((c : Thread nD τ).loc main_arg12) := by
  have h : W6 m ρ c (Proc.devRef .tc main_arg12) = m ((c : Thread nD τ).loc main_arg12) := (W6_of_ne m ρ c main_arg12 (by decide)).trans (W5_arg12 m ρ c)
  show StableHlo.after hostOps2 (W6 m ρ c) (Proc.devRef .tc main_arg12) = _
  generalize W6 m ρ c = V at h ⊢
  simp only [hostOps2]
  after_results_simp
  results_loop
  exact h

theorem W7_arg13 (c : Dev nD) : W7 m ρ c (Proc.devRef .tc main_arg13) = m ((c : Thread nD τ).loc main_arg13) := by
  have h : W6 m ρ c (Proc.devRef .tc main_arg13) = m ((c : Thread nD τ).loc main_arg13) := (W6_of_ne m ρ c main_arg13 (by decide)).trans (W5_arg13 m ρ c)
  show StableHlo.after hostOps2 (W6 m ρ c) (Proc.devRef .tc main_arg13) = _
  generalize W6 m ρ c = V at h ⊢
  simp only [hostOps2]
  after_results_simp
  results_loop
  exact h

/-! ## The third region: the head of the second aggregate -/

theorem W8_v60 (c : Dev nD) : W8 m ρ c (Proc.devRef .tc main_v60)
    = head (W7 m ρ c (Proc.devRef .tc main_v59)) (W7 m ρ c (Proc.devRef .tc main_arg11)) (W7 m ρ c (Proc.devRef .tc main_arg12)) (W7 m ρ c (Proc.devRef .tc main_arg13)) :=
  (W8_arr m ρ c 4).trans (final2 (V7 m ρ) c)

/-- THE KERNEL PROGRAM'S RESULT: head of the aggregate of the step of the aggregate of the first projection. -/
theorem kernel_value (c : Dev nD) : W8 m ρ c (Proc.devRef .tc main_v60)
    = head (aggB (step (aggA (enc (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3))) (m ((c : Thread nD τ).loc main_arg9)) (m ((c : Thread nD τ).loc main_arg10))) (m ((c : Thread nD τ).loc main_arg2)) (m ((c : Thread nD τ).loc main_arg3)))
        (m ((c : Thread nD τ).loc main_arg11)) (m ((c : Thread nD τ).loc main_arg12)) (m ((c : Thread nD τ).loc main_arg13)) := by
  rw [W8_v60 m ρ c, W7_v59 m ρ c, W7_arg11 m ρ c, W7_arg12 m ρ c, W7_arg13 m ρ c, W6_v46 m ρ c, W5_v45 m ρ c, W5_arg9 m ρ c,
    W5_arg10 m ρ c, W4_v32 m ρ c]

end Cert.Gcn.KernelSide

end
-- ==== Proof.lean ====
/-
  A GRAPH CONVOLUTION NETWORK WITH A LOCATION ENCODER, TILED BY ROWS, AGAINST ITS PLAIN REFERENCE.

  Both programs compute, for 100000 nodes and 2000000 weighted edges (plus one self loop per node),

      out = head (agg (step (agg (enc x c))))

  where `enc` embeds each node's coordinates by a two-layer perceptron, puts the embedding beside the node's inputs
  and projects; `agg` gathers the projected rows along the edges, scales each by the symmetric degree normalisation
  (inverse square roots of the weighted degree at both ends, times the edge weight) and adds them up at the edges'
  targets; `step` adds a bias, rectifies and projects; `head` does the same onto one column and adds the output
  bias. The kernel program runs `enc`, `step` and `head` as three kernels over tiles of 5000 rows and everything
  on the edges as host operations; the reference runs everything as host operations on whole arrays.

  At the ideal values the two agree operation by operation, with no algebraic law between them: every dense stage
  acts on each row separately, so a tile's row is the whole array's row (Proof/RowStages.lean, the stages for any
  number of rows; Proof/KernelPayloads.lean, one tile; Proof/EncoderTiles.lean, StepTiles.lean, HeadTiles.lean, the 20
  tiles cover the 100000 rows; Proof/ReferenceStages.lean, the reference's stages are the row-wise ones); a matrix
  product from the zero accumulator and the host's `dot_general` are the same sum; a value rounded to a shorter
  format on its way into a product is itself. The operations on the edges are the same on both sides and are carried
  as one function, never opened (Proof/KernelHost.lean, Proof/KernelLayers.lean). The precondition is not used: no
  step needs finiteness.

  The three frames: the two kernel programs' are generated whole; the reference's is its generated run with the
  result dropped. The idealization rewrote nothing, so there is nothing to preserve.
-/
import proofs.«106256_j53824530153898_1_alg».proof.Defs
import proofs.«106256_j53824530153898_1_alg».proof.Proof.Gen.Kernel
import proofs.«106256_j53824530153898_1_alg».proof.Proof.Gen.Kernel.Skeleton
import proofs.«106256_j53824530153898_1_alg».proof.Proof.Gen.Kernel.Launch
import proofs.«106256_j53824530153898_1_alg».proof.Proof.Gen.Kernel.Points
import proofs.«106256_j53824530153898_1_alg».proof.Proof.Gen.Kernel.Frame
import proofs.«106256_j53824530153898_1_alg».proof.Proof.Gen.KernelIdeal
import proofs.«106256_j53824530153898_1_alg».proof.Proof.Gen.KernelIdeal.Skeleton
import proofs.«106256_j53824530153898_1_alg».proof.Proof.Gen.KernelIdeal.Launch
import proofs.«106256_j53824530153898_1_alg».proof.Proof.Gen.KernelIdeal.Points
import proofs.«106256_j53824530153898_1_alg».proof.Proof.Gen.KernelIdeal.Frame
import proofs.«106256_j53824530153898_1_alg».proof.Proof.Gen.ReferenceIdeal
import proofs.«106256_j53824530153898_1_alg».proof.Proof.Gen.ReferenceIdeal.Run
import proofs.«106256_j53824530153898_1_alg».proof.Proof.Gen.ReferenceIdeal.Read
import proofs.«106256_j53824530153898_1_alg».proof.Proof.Gen.Pre_finite_inputs
import proofs.«106256_j53824530153898_1_alg».proof.Proof.KernelRun
import proofs.«106256_j53824530153898_1_alg».proof.Proof.KernelLayers
import proofs.«106256_j53824530153898_1_alg».proof.Proof.ReferenceStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at `head (agg (step (agg (enc x c))))` of arguments that agree: the kernel
    program by its run read through its regions and stretches, the reference by its generated run, whose dense
    stages are the row-wise ones. -/
theorem algebraic : Cert.algebraic_KernelIdeal_ReferenceIdeal := by
  intro m ρ m' ρ' _ hagree
  refine ⟨fun c => Cert.Gcn.head (Cert.Gcn.ReferenceSide.aggB (Cert.Gcn.step (Cert.Gcn.ReferenceSide.aggA
      (Cert.Gcn.enc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.Gcn.KernelSide.kernel_value m ρ c), (h c).2⟩)
      (Cert.Gcn.KernelSide.run_last (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8, a9, a10, a11, a12, a13⟩ := hagree c
    rw [(h c).1, Cert.ReferenceIdeal.Read.val_main_v104_eq, Cert.Gcn.ReferenceSide.ref_result,
      ← Cert.Gcn.ReferenceSide.ref_enc, ← Cert.Gcn.ReferenceSide.ref_step, ← Cert.Gcn.ReferenceSide.ref_head,
      a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
